-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x256 : Shape := ⟨2, ![1, 256]⟩
abbrev S50000x256 : Shape := ⟨2, ![50000, 256]⟩
abbrev S10000x128 : Shape := ⟨2, ![10000, 128]⟩
abbrev S10000x256 : Shape := ⟨2, ![10000, 256]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩

abbrev nBuf : Space → Nat
  | .hbm => 87
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x256, .f32⟩
  | .hbm, ⟨66, _⟩ => ⟨S50000x256, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x1, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x256, .f32⟩
  | .local _ .vmem, ⟨3, _⟩ => ⟨S1x256, .f32⟩
  | .local _ .vmem, ⟨4, _⟩ => ⟨S10000x256, .f32⟩
  | .local _ .vmem, ⟨5, _⟩ => ⟨S10000x256, .f32⟩
  | .local _ .vmem, ⟨6, _⟩ => ⟨S10000x256, .f32⟩
  | .local _ .vmem, ⟨7, _⟩ => ⟨S10000x256, .f32⟩
  | .local _ .vmem, ⟨8, _⟩ => ⟨S256x64, .f32⟩
  | .local _ .vmem, ⟨9, _⟩ => ⟨S10000x64, .f32⟩
  | .local _ .vmem, ⟨10, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S256_S1x256 : S256.ShapeCasts S1x256
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x256_S10000x256_1_0_0_1_n_n_wf : DotDims.WF S10000x128 S128x256 S10000x256 [1] [0] [0] [1] [] []
  dot_S10000x256_S256x64_S10000x64_1_0_0_1_n_n_wf : DotDims.WF S10000x256 S256x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x256.size a ≤ S50000x256.size a
  hwx0_3 : ∀ i : grid0.Coords, EltTy.bits .f32 = 32 ∨ (Rect.block (s := S50000x256) S10000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S50000x256.size a
  hwx1_0 : ∀ i : grid1.Coords, EltTy.bits .f32 = 32 ∨ (Rect.block (s := S50000x256) S10000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v44) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S10000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result named.

  @main is six segments in a row: three stretches of host operations, the two dense regions, and a last stretch of host
  operations. Each segment starts from the buffer contents the one before it leaves, so the contents at the end are a
  fold through the program from the launch memory: the generated frame module calls the boundaries W0, …, W6. Every
  weakly fair execution terminates, without a fault, in a state where every buffer that outlives the run holds W6's
  contents. The frame theorem keeps, of that, only the argument arrays; here the same run is stated with the result
  buffer read as well: it ends at W6's contents there. What those contents are, as a function of the arguments, is the
  business of the modules that read the fold.
-/
import proofs.«178270_j16329465660164_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.LibSegment.lean ====
/-
  Rows picked out of an array by a column of integer indices, and rows added into an array at a column of
  integer indices, read at an index.

  A column `idx : [M, 1]` of integers names, for each of `M` edges, one of `N` rows.
  * Picking (`x[idx]`, a `stablehlo.gather` with one collapsed axis): edge `e` reads row `idx[e, 0]`, the integer
    taken signed and clamped into `[0, N - 1]` — for a flat array `[N]` (`gather_entries_apply`) and for an array
    of rows `[N, D]` (`gather_rows_apply`).
  * Adding (`zeros.at[idx].add(upd)`, a `stablehlo.scatter` whose body adds): at the exact extended reals, row `n`
    of the result is the operand's row plus the sum of the updates of exactly those edges whose integer, taken
    signed and NOT clamped, is `n`; an edge whose integer is outside `[0, N)` contributes nowhere — for a flat
    array (`scatterAdd_entries_apply`) and for rows (`scatterAdd_rows_apply`).
  Both are stated for any extents, over the dimension numbers spelt out as `entryDims`, `rowDims`, `entryAddDims`,
  `rowAddDims`; a program's own record of the same numbers is one of these by `rfl`.
-/
import Idealize.ShloMosaic.PureOps.Ideal
import Idealize.ShloMosaic.Lib.ValueIdx

noncomputable section

open scoped BigOperators

namespace Cert.LibSegment

open Idealize.ShloMosaic Idealize.ShloMosaic.ValueIdx

variable {α : Type}

/-- The entry `(e, 0)` of a column `[M, 1]`. -/
abbrev colIdx {M : Nat} (e : Fin M) : (⟨2, ![M, 1]⟩ : Shape).Idx := ix2 e (⟨0, Nat.one_pos⟩ : Fin 1)

/-- An integer word taken signed and clamped into `[0, N - 1]`: the row a gather reads. -/
def clampRow (N : Nat) (hN : 0 < N) {w : Nat} (v : BitVec w) : Fin N := ⟨min v.toInt.toNat (N - 1), by omega⟩

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-! ## Picking entries of a flat array -/

/-- The dimension numbers of `x[idx]` for `x : [N]`, `idx : [M, 1]`, result `[M]`. -/
abbrev entryDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Edge `e` of `x[idx]` is `x` at the clamped integer `idx[e, 0]`. -/
theorem gather_entries_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryDims N M wf) x idx (ix1 e) = x (ix1 (clampRow N hN (idx (colIdx e)))) := by
  unfold Host.gather
  congr 1
  funext a
  obtain rfl : a = 0 := Subsingleton.elim _ _
  refine Fin.ext ?_
  show (entryDims N M wf).start (ix1 e) idx 0 + (entryDims N M wf).batchCoord (ix1 e) 0
    + (entryDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N M wf).startIndexMap from List.mem_singleton.mpr rfl)]
  have hsi : (entryDims N M wf).siIdx (ix1 e) ⟨List.idxOf (0 : Fin 1) (entryDims N M wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## Picking rows -/

/-- The dimension numbers of `x[idx]` for `x : [N, D]`, `idx : [M, 1]`, result `[M, D]`: whole rows. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, j)` of the picked rows is `x` at row (the clamped integer `idx[e, 0]`), column `j`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (j : Fin D) :
    Host.gather (rowDims N D M wf) x idx (ix2 e j) = x (ix2 (clampRow N hN (idx (colIdx e))) j) := by
  unfold Host.gather
  congr 1
  funext a
  refine Fin.ext ?_
  match a with
  | ⟨0, _⟩ =>
    show (rowDims N D M wf).start (ix2 e j) idx 0 + (rowDims N D M wf).batchCoord (ix2 e j) 0
      + (rowDims N D M wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e j) ⟨List.idxOf (0 : Fin 2) (rowDims N D M wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D M wf).start (ix2 e j) idx 1 + (rowDims N D M wf).batchCoord (ix2 e j) 1
      + (rowDims N D M wf).offCoord (ix2 e j) 1 = j.val
    rw [GatherDims.batchCoord_eq_zero _ _ _ List.not_mem_nil]
    have hs : (rowDims N D M wf).start (ix2 e j) idx 1 = 0 := by
      unfold GatherDims.start
      rw [dif_neg (show (1 : Fin 2) ∉ [(0 : Fin 2)] from by decide)]
    have hk : (1 : Fin 2) ∈ (rowDims N D M wf).sKept :=
      show (1 : Fin 2) ∈ (List.finRange 2).filter (· ∉ [(0 : Fin 2)] ++ []) from by decide
    rw [hs]
    unfold GatherDims.offCoord
    rw [dif_pos hk]
    simp only [Nat.zero_add, Nat.add_zero]
    rfl

/-! ## Adding entries into a flat array -/

/-- The dimension numbers of `x.at[idx].add(upd)` for `x : [N]`, `idx : [M, 1]`, `upd : [M]`. -/
abbrev entryAddDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where edge `e`'s update lands: at its integer, signed. -/
theorem entryAdd_pos {N M w : Nat} (wf : ScatterDims.WF ⟨1, ![N]⟩ ⟨2, ![M, 1]⟩ ⟨1, ![M]⟩ [] [0] [0] 1)
    (idx : IVec ⟨2, ![M, 1]⟩ w) (e : Fin M) (a : Fin 1) :
    (entryAddDims N M wf).start (ix1 e) idx a + ((entryAddDims N M wf).window (ix1 e) a : Int)
      = (idx (colIdx e)).toInt := by
  obtain rfl : a = 0 := Subsingleton.elim _ _
  have hw : (entryAddDims N M wf).window (ix1 e) 0 = 0 := by
    unfold ScatterDims.window
    have hk : (0 : Fin 1) ∉ (entryAddDims N M wf).sKept :=
      show (0 : Fin 1) ∉ (List.finRange 1).filter (· ∉ [(0 : Fin 1)]) from by decide
    rw [dif_neg hk]
  rw [hw]
  unfold ScatterDims.start
  rw [dif_pos (show (0 : Fin 1) ∈ (entryAddDims N M wf).scatterDimsToOperandDims from List.mem_singleton.mpr rfl)]
  have hsi : (entryAddDims N M wf).siIdx (ix1 e) ⟨List.idxOf (0 : Fin 1) (entryAddDims N M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Edge `e`'s update lands on entry `n` exactly when its integer, signed, is `n`. -/
theorem entryAdd_resultIdx_iff {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (entryAddDims N M wf).resultIdx? (ix1 e) idx = some (ix1 n) ↔ (idx (colIdx e)).toInt = (n.val : Int) := by
  unfold ScatterDims.resultIdx?
  constructor
  · intro h
    split at h
    · next hb =>
      have h0 := congrArg Fin.val (congrFun (Option.some.inj h) 0)
      have h1 := (hb 0).1
      simp only [entryAdd_pos] at h0 h1
      have h2 : (idx (colIdx e)).toInt.toNat = n.val := h0
      omega
    · exact absurd h (by simp)
  · intro h
    have hb : ∀ a, 0 ≤ (entryAddDims N M wf).start (ix1 e) idx a + ((entryAddDims N M wf).window (ix1 e) a : Int)
        ∧ (entryAddDims N M wf).start (ix1 e) idx a + ((entryAddDims N M wf).window (ix1 e) a : Int)
          < ((⟨1, ![N]⟩ : Shape).size a : Int) := by
      intro a
      obtain rfl : a = 0 := Subsingleton.elim _ _
      rw [entryAdd_pos, h]
      exact ⟨Int.natCast_nonneg _, by exact_mod_cast n.isLt⟩
    rw [dif_pos hb]
    congr 1
    funext a
    obtain rfl : a = 0 := Subsingleton.elim _ _
    refine Fin.ext ?_
    show ((entryAddDims N M wf).start (ix1 e) idx 0 + ((entryAddDims N M wf).window (ix1 e) 0 : Int)).toNat = n.val
    rw [entryAdd_pos, h]
    simp

/-- Entry `n` after the additions: the operand's entry plus the updates of the edges whose integer is `n`. -/
theorem scatterAdd_entries_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (entryAddDims N M wf) x idx upd (ix1 n)
      = x (ix1 n) + ∑ e ∈ Finset.univ.filter (fun e : Fin M => (idx (colIdx e)).toInt = (n.val : Int)), upd (ix1 e) := by
  unfold Ideal.hostScatterAdd
  congr 1
  rw [Finset.sum_filter, Finset.sum_filter]
  refine Fintype.sum_equiv idxEquiv1 _ _ (fun i => ?_)
  rw [eq_ix1 i]
  exact if_congr (entryAdd_resultIdx_iff wf idx (i 0) n) rfl rfl

/-- The same for the host operation as a program prints it. -/
theorem hostScatterAdd_entries_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (entryAddDims N M wf) x idx upd (ix1 n)
      = x (ix1 n) + ∑ e ∈ Finset.univ.filter (fun e : Fin M => (idx (colIdx e)).toInt = (n.val : Int)), upd (ix1 e) := by
  unfold Host.scatterAdd
  rw [Ideal.hostScatterAdd_def]
  exact scatterAdd_entries_apply wf x idx upd n

/-! ## Adding rows -/

/-- The dimension numbers of `x.at[idx].add(upd)` for `x : [N, D]`, `idx : [M, 1]`, `upd : [M, D]`: whole rows. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where entry `(e, c)` of the updates lands, row coordinate: at edge `e`'s integer, signed. -/
theorem rowAdd_pos0 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 0 + ((rowAddDims N D M wf).window (ix2 e c) 0 : Int)
      = (idx (colIdx e)).toInt := by
  have hw : (rowAddDims N D M wf).window (ix2 e c) 0 = 0 := by
    unfold ScatterDims.window
    have hk : (0 : Fin 2) ∉ (rowAddDims N D M wf).sKept :=
      show (0 : Fin 2) ∉ (List.finRange 2).filter (· ∉ [(0 : Fin 2)]) from by decide
    rw [dif_neg hk]
  rw [hw]
  unfold ScatterDims.start
  rw [dif_pos (show (0 : Fin 2) ∈ (rowAddDims N D M wf).scatterDimsToOperandDims from List.mem_singleton.mpr rfl)]
  have hsi : (rowAddDims N D M wf).siIdx (ix2 e c) ⟨List.idxOf (0 : Fin 2) (rowAddDims N D M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Where entry `(e, c)` of the updates lands, column coordinate: at `c`. -/
theorem rowAdd_pos1 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 1 + ((rowAddDims N D M wf).window (ix2 e c) 1 : Int) = (c.val : Int) := by
  have hs : (rowAddDims N D M wf).start (ix2 e c) idx 1 = 0 := by
    unfold ScatterDims.start
    rw [dif_neg (show (1 : Fin 2) ∉ [(0 : Fin 2)] from by decide)]
  have hw : (rowAddDims N D M wf).window (ix2 e c) 1 = c.val := by
    unfold ScatterDims.window
    have hk : (1 : Fin 2) ∈ (rowAddDims N D M wf).sKept :=
      show (1 : Fin 2) ∈ (List.finRange 2).filter (· ∉ [(0 : Fin 2)]) from by decide
    rw [dif_pos hk]
    rfl
  rw [hs, hw]
  simp

/-- Entry `(e, c)` of the updates lands on `(n, j)` exactly when edge `e`'s integer, signed, is `n` and `c = j`. -/
theorem rowAdd_resultIdx_iff {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) (n : Fin N) (j : Fin D) :
    (rowAddDims N D M wf).resultIdx? (ix2 e c) idx = some (ix2 n j)
      ↔ (idx (colIdx e)).toInt = (n.val : Int) ∧ c = j := by
  unfold ScatterDims.resultIdx?
  constructor
  · intro h
    split at h
    · next hb =>
      have h0 := congrArg Fin.val (congrFun (Option.some.inj h) 0)
      have h1 := congrArg Fin.val (congrFun (Option.some.inj h) 1)
      have h2 := (hb 0).1
      simp only [rowAdd_pos0] at h0 h2
      simp only [rowAdd_pos1] at h1
      have h3 : (idx (colIdx e)).toInt.toNat = n.val := h0
      have h4 : ((c.val : Int)).toNat = j.val := h1
      refine ⟨by omega, Fin.ext (by simpa using h4)⟩
    · exact absurd h (by simp)
  · rintro ⟨h, rfl⟩
    have hb : ∀ a, 0 ≤ (rowAddDims N D M wf).start (ix2 e c) idx a + ((rowAddDims N D M wf).window (ix2 e c) a : Int)
        ∧ (rowAddDims N D M wf).start (ix2 e c) idx a + ((rowAddDims N D M wf).window (ix2 e c) a : Int)
          < ((⟨2, ![N, D]⟩ : Shape).size a : Int) := by
      intro a
      match a with
      | ⟨0, _⟩ =>
        show 0 ≤ (rowAddDims N D M wf).start (ix2 e c) idx 0 + ((rowAddDims N D M wf).window (ix2 e c) 0 : Int)
          ∧ (rowAddDims N D M wf).start (ix2 e c) idx 0 + ((rowAddDims N D M wf).window (ix2 e c) 0 : Int) < (N : Int)
        rw [rowAdd_pos0, h]
        exact ⟨Int.natCast_nonneg _, by exact_mod_cast n.isLt⟩
      | ⟨1, _⟩ =>
        show 0 ≤ (rowAddDims N D M wf).start (ix2 e c) idx 1 + ((rowAddDims N D M wf).window (ix2 e c) 1 : Int)
          ∧ (rowAddDims N D M wf).start (ix2 e c) idx 1 + ((rowAddDims N D M wf).window (ix2 e c) 1 : Int) < (D : Int)
        rw [rowAdd_pos1]
        exact ⟨Int.natCast_nonneg _, by exact_mod_cast c.isLt⟩
    rw [dif_pos hb]
    congr 1
    funext a
    refine Fin.ext ?_
    match a with
    | ⟨0, _⟩ =>
      show ((rowAddDims N D M wf).start (ix2 e c) idx 0 + ((rowAddDims N D M wf).window (ix2 e c) 0 : Int)).toNat = n.val
      rw [rowAdd_pos0, h]; simp
    | ⟨1, _⟩ =>
      show ((rowAddDims N D M wf).start (ix2 e c) idx 1 + ((rowAddDims N D M wf).window (ix2 e c) 1 : Int)).toNat = c.val
      rw [rowAdd_pos1]; simp

/-- Entry `(n, j)` after the additions: the operand's entry plus column `j` of the updates of the edges whose
    integer is `n`. -/
theorem scatterAdd_rows_apply {N D M w : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (j : Fin D) :
    Ideal.hostScatterAdd (rowAddDims N D M wf) x idx upd (ix2 n j)
      = x (ix2 n j) + ∑ e ∈ Finset.univ.filter (fun e : Fin M => (idx (colIdx e)).toInt = (n.val : Int)), upd (ix2 e j) := by
  unfold Ideal.hostScatterAdd
  congr 1
  rw [Finset.sum_filter, Finset.sum_filter, sum_idx2]
  refine Finset.sum_congr rfl (fun e _ => ?_)
  by_cases hA : (idx (colIdx e)).toInt = (n.val : Int)
  · rw [if_pos hA]
    rw [Finset.sum_eq_single j]
    · rw [if_pos ((rowAdd_resultIdx_iff wf idx e j n j).mpr ⟨hA, rfl⟩)]
    · intro c _ hc
      rw [if_neg (fun h => hc ((rowAdd_resultIdx_iff wf idx e c n j).mp h).2)]
    · intro h; exact absurd (Finset.mem_univ j) h
  · rw [if_neg hA]
    refine Finset.sum_eq_zero (fun c _ => ?_)
    rw [if_neg (fun h => hA ((rowAdd_resultIdx_iff wf idx e c n j).mp h).1)]

/-- The same for the host operation as a program prints it. -/
theorem hostScatterAdd_rows_apply {N D M w : Nat} {φ : FTy}
    (wf : ScatterDims.WF ⟨2, ![N, D]⟩ ⟨2, ![M, 1]⟩ ⟨2, ![M, D]⟩ [1] [0] [0] 1)
    (x : FVec Ideal ⟨2, ![N, D]⟩ φ) (idx : IVec ⟨2, ![M, 1]⟩ w) (upd : FVec Ideal ⟨2, ![M, D]⟩ φ) (n : Fin N) (j : Fin D) :
    Host.scatterAdd (F := Ideal) (rowAddDims N D M wf) x idx upd (ix2 n j)
      = x (ix2 n j) + ∑ e ∈ Finset.univ.filter (fun e : Fin M => (idx (colIdx e)).toInt = (n.val : Int)), upd (ix2 e j) := by
  unfold Host.scatterAdd
  rw [Ideal.hostScatterAdd_def]
  exact scatterAdd_rows_apply wf x idx upd n j

end Cert.LibSegment

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«178270_j16329465660164_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibAggregate.lean ====
/-
  Sums over edges and sums over features exchange, for real entries.

  A graph layer adds, into node `n`, the rows `a e` of the edges `e` of a set `S` (those that point at `n`), each scaled
  by a weight `c e`. Multiplying the result by a matrix column `w` afterwards,

      ∑ k, (z + ∑ e ∈ S, a e k * c e) * w k,

  or multiplying every row by the column first and adding up the scaled products,

      z + ∑ e ∈ S, (∑ k, a e k * w k) * c e,

  is the same number when `z = 0` and every `a e k`, `c e`, `w k` is a real: then both are finite sums of reals, where
  multiplication distributes over addition and the order of summation is free. On the extended reals this needs the
  entries to be real — with an infinite weight the inner sums could be `+∞ + -∞` — which is why the statement carries
  the three hypotheses. Also here: a finite sum of reals is the real sum (`coe_sum`), so it is a real (`sum_real`);
  products and the larger of two reals are reals.
-/
import Idealize.ShloMosaic.PureOps.Ideal

noncomputable section

open scoped BigOperators

namespace Cert.LibAggregate

/-- The real sum, read as an extended real, is the sum of the terms read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih (fun i hi => h i (Finset.mem_insert_of_mem hi))
    obtain ⟨q, hq⟩ := h a (Finset.mem_insert_self a s)
    exact ⟨q + r, by rw [Finset.sum_insert ha, hr, hq, EReal.coe_add]⟩

/-- A product of reals is a real. -/
theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- A sum of two reals is a real. -/
theorem add_real {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

/-- The larger of two reals is a real. -/
theorem max_real {x y : EReal} (hx : ∃ r : ℝ, x = r) (hy : ∃ r : ℝ, y = r) : ∃ r : ℝ, max x y = r := by
  rcases le_total x y with h | h
  · rw [max_eq_right h]; exact hy
  · rw [max_eq_left h]; exact hx

/-- Edges first, then the column — or the column first, then the edges: the same, for real entries. -/
theorem edges_then_column {E K : Type*} [Fintype K] (S : Finset E) (a : E → K → EReal) (c : E → EReal) (w : K → EReal)
    (ha : ∀ e k, ∃ r : ℝ, a e k = r) (hc : ∀ e, ∃ r : ℝ, c e = r) (hw : ∀ k, ∃ r : ℝ, w k = r) :
    ∑ k, (0 + ∑ e ∈ S, a e k * c e) * w k = 0 + ∑ e ∈ S, (∑ k, a e k * w k) * c e := by
  choose A hA using ha
  choose C hC using hc
  choose W hW using hw
  simp only [hA, hC, hW, zero_add, ← EReal.coe_mul, ← coe_sum]
  refine congrArg _ ?_
  simp only [Finset.sum_mul]
  rw [Finset.sum_comm]
  exact Finset.sum_congr rfl fun e _ => Finset.sum_congr rfl fun k _ => by ring

end Cert.LibAggregate

end
-- ==== Proof.LibGraphRound.lean ====
/-
  One round of message passing, read at an index, and its exchange with a matrix product.

  The edges of the graph are numbered by `Fin M`. Edge `e` has a source row, named by the integer `rowcol (e, 0)`
  taken signed and clamped into the array, a target row, named by the integer `colcol (e, 0)` taken signed (an edge
  whose target is outside the array contributes nowhere), and a weight `nrm e`. One round `agg H` gathers the source
  rows of the node features `H` (N × D), scales each by its edge's weight, and adds them into a zero array at the target
  rows. Entry (n, j) of the result is

      0 + ∑ over the edges e whose target is n of H (source e, j) · nrm e          (`agg_apply`).

  When the features, the weights of the edges and a matrix `W` (D × D') are real, aggregating and then multiplying by
  `W` is multiplying by `W` and then aggregating (`matProd_agg`): both are finite sums of products of reals, in which
  the product distributes and the two sums exchange.
-/
import proofs.«178270_j16329465660164_2_alg».proof.Proof.LibSegment
import proofs.«178270_j16329465660164_2_alg».proof.Proof.LibMatProd
import proofs.«178270_j16329465660164_2_alg».proof.Proof.LibAggregate
import Idealize.ShloMosaic.Lib.Pipeline.Value
import Idealize.ShloMosaic.Lib.ValueIdx
import Idealize.ShloMosaic.PureOps.Ideal.Laws

noncomputable section

open scoped BigOperators

namespace Cert.Graph

open Idealize.ShloMosaic Idealize.ShloMosaic.ValueIdx Cert.LibSegment Cert.LibMatProd Cert.LibAggregate

variable {α : Type}

/-- A vector `[a]` laid out as a column `[a, 1]` reads, at (p, u), the vector at p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ (ix1 p) (fun ax => match ax with
    | ⟨0, _⟩ => by
      show p.val = if a = 1 then 0 else p.val
      split
      · have := p.isLt; omega
      · rfl)

/-- A column `[a, 1]` repeated along the rows to `[a, b]` reads, at (p, c), the column at p. -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- One round of message passing: gather the source rows, scale by the edge weights, add at the target rows. -/
def agg {N D M : ℕ} (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (hz : (⟨0, ![]⟩ : Shape).BroadcastsInDim ⟨2, ![N, D]⟩ ![])
    (hc : (⟨1, ![M]⟩ : Shape).BroadcastsInDim ⟨2, ![M, 1]⟩ ![0])
    (hr : (⟨2, ![M, 1]⟩ : Shape).BroadcastsInDim ⟨2, ![M, D]⟩ ![0, 1])
    (H : FVec Ideal ⟨2, ![N, D]⟩ .f32) (rowcol colcol : IVec ⟨2, ![M, 1]⟩ 32) (nrm : FVec Ideal ⟨1, ![M]⟩ .f32) :
    FVec Ideal ⟨2, ![N, D]⟩ .f32 :=
  Host.scatterAdd (F := Ideal) (rowAddDims N D M wfs)
    (broadcastInDim ⟨2, ![N, D]⟩ ![] hz (constant (F := Ideal) ⟨0, ![]⟩ .f32 0x00000000#32)) colcol
    (mulf (Host.gather (rowDims N D M wfg) H rowcol)
      (broadcastInDim ⟨2, ![M, D]⟩ ![0, 1] hr (broadcastInDim ⟨2, ![M, 1]⟩ ![0] hc nrm)))

/-- Entry (n, j) after one round: the sum, over the edges whose target is n, of the source row's entry j times the
    edge's weight. -/
theorem agg_apply {N D M : ℕ} (hN : 0 < N) (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (hz : (⟨0, ![]⟩ : Shape).BroadcastsInDim ⟨2, ![N, D]⟩ ![])
    (hc : (⟨1, ![M]⟩ : Shape).BroadcastsInDim ⟨2, ![M, 1]⟩ ![0])
    (hr : (⟨2, ![M, 1]⟩ : Shape).BroadcastsInDim ⟨2, ![M, D]⟩ ![0, 1])
    (H : FVec Ideal ⟨2, ![N, D]⟩ .f32) (rowcol colcol : IVec ⟨2, ![M, 1]⟩ 32) (nrm : FVec Ideal ⟨1, ![M]⟩ .f32)
    (n : Fin N) (j : Fin D) :
    agg wfg wfs hz hc hr H rowcol colcol nrm (ix2 n j)
      = 0 + ∑ e ∈ Finset.univ.filter (fun e : Fin M => (colcol (colIdx e)).toInt = (n.val : Int)),
          H (ix2 (clampRow N hN (rowcol (colIdx e))) j) * nrm (ix1 e) := by
  unfold agg
  rw [hostScatterAdd_rows_apply]
  refine congrArg₂ (· + ·) ?_ (Finset.sum_congr rfl fun e _ => ?_)
  · rw [broadcastInDim_apply _ hz _ (ix2 n j) ix0 (fun a => a.elim0)]
    exact Ideal.ofBits_zero_f32
  · rw [mulf_apply, gather_rows_apply hN, bcast_a1_ab_apply, bcast_a_a1_apply]

/-- Aggregating and then multiplying by a matrix is multiplying and then aggregating, for real entries. -/
theorem matProd_agg {N D D' M : ℕ} (hN : 0 < N)
    (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (hz : (⟨0, ![]⟩ : Shape).BroadcastsInDim ⟨2, ![N, D]⟩ ![])
    (hr : (⟨2, ![M, 1]⟩ : Shape).BroadcastsInDim ⟨2, ![M, D]⟩ ![0, 1])
    (wfg' : GatherDims.WF ⟨2, ![N, D']⟩ ⟨2, ![M, 1]⟩ ⟨2, ![M, D']⟩ [1] [0] [] [0] [] 1 ![1, D'])
    (wfs' : ScatterDims.WF ⟨2, ![N, D']⟩ ⟨2, ![M, 1]⟩ ⟨2, ![M, D']⟩ [1] [0] [0] 1)
    (hz' : (⟨0, ![]⟩ : Shape).BroadcastsInDim ⟨2, ![N, D']⟩ ![])
    (hr' : (⟨2, ![M, 1]⟩ : Shape).BroadcastsInDim ⟨2, ![M, D']⟩ ![0, 1])
    (hc : (⟨1, ![M]⟩ : Shape).BroadcastsInDim ⟨2, ![M, 1]⟩ ![0])
    (X : FVec Ideal ⟨2, ![N, D]⟩ .f32) (W : FVec Ideal ⟨2, ![D, D']⟩ .f32)
    (rowcol colcol : IVec ⟨2, ![M, 1]⟩ 32) (nrm : FVec Ideal ⟨1, ![M]⟩ .f32)
    (hX : ∀ i, ∃ r : ℝ, X i = r) (hW : ∀ i, ∃ r : ℝ, W i = r) (hn : ∀ i, ∃ r : ℝ, nrm i = r) :
    matProd (agg wfg wfs hz hc hr X rowcol colcol nrm) W = agg wfg' wfs' hz' hc hr' (matProd X W) rowcol colcol nrm := by
  funext i
  obtain ⟨n, j, rfl⟩ : ∃ (n : Fin N) (j : Fin D'), i = ix2 n j := ⟨i 0, i 1, eq_ix2 i⟩
  rw [matProd_apply, agg_apply hN]
  simp only [agg_apply hN, matProd_apply]
  exact edges_then_column _ (fun e k => X (ix2 (clampRow N hN (rowcol (colIdx e))) k)) (fun e => nrm (ix1 e))
    (fun k => W (ix2 k j)) (fun e k => hX _) (fun e => hn _) (fun k => hW _)

end Cert.Graph

end
-- ==== Proof.HostFunctions.lean ====
/-
  The host operations the two programs share, as functions.

  From the vector R of the edges' sources, C of their targets (both of length 850000) and the vector D of the nodes'
  inverse square-root degrees:
  * `wrapIdx R` is R with a negative entry counted from the end (50000 added), laid out as a column: the index column a
    gather reads its rows by;
  * `weights D R C` is the edge weight D[source] · D[target], both picked through `wrapIdx`;
  * `tail H R C w b` is the last round of message passing: the rows of H picked at the sources, row e scaled by w e,
    added into zeros at the targets, and b added to every row.
  Both programs apply exactly these, so nothing that uses them needs to look inside.
-/
import proofs.«178270_j16329465660164_2_alg».proof.Proof.Gen.KernelIdeal
import Idealize.ShloMosaic.PureOps.Ideal

noncomputable section

namespace Cert.KernelIdeal.Host

open Cert.KernelIdeal Idealize.ShloMosaic

/-- An index vector with negative entries counted from the end, as a column. -/
def wrapIdx (R : IVec S850000 32) : IVec S850000x1 32 :=
  broadcastInDim S850000x1 ![0] Facts₀.bcast_S850000_S850000x1_0
    (select (cmpi .slt R (broadcastInDim S850000 ![] Facts₀.bcast_S_S850000 (constantI S_ 32 0#32)))
      (addi R (broadcastInDim S850000 ![] Facts₀.bcast_S_S850000 (constantI S_ 32 50000#32))) R)

/-- The edge weights: the node vector D at the source times D at the target. -/
def weights (D : FVec Ideal S50000 .f32) (R C : IVec S850000 32) : FVec Ideal S850000 .f32 :=
  mulf (Host.gather gather_S50000_S850000x1_S850000_n_0_n_n_0_1_1 D (wrapIdx R))
    (Host.gather gather_S50000_S850000x1_S850000_n_0_n_n_0_1_1 D (wrapIdx C))

/-- The last round: gather the rows of `H2` at the sources, scale row e by `Nn e`, add at the targets into zeros, add
    the bias `B` to every row. -/
def tail (H2 : FVec Ideal S50000x64 .f32) (R C : IVec S850000 32) (Nn : FVec Ideal S850000 .f32) (B : FVec Ideal S64 .f32) :
    FVec Ideal S50000x64 .f32 :=
  addf
    (Host.scatterAdd (F := Ideal) scatter_S50000x64_S850000x1_S850000x64_1_0_0_1
      (broadcastInDim S50000x64 ![] Facts₀.bcast_S_S50000x64 (constant (F := Ideal) S_ .f32 0x00000000#32))
      (broadcastInDim S850000x1 ![0] Facts₀.bcast_S850000_S850000x1_0 C)
      (mulf (Host.gather gather_S50000x64_S850000x1_S850000x64_1_0_n_n_0_1_164 H2 (wrapIdx R))
        (broadcastInDim S850000x64 ![0, 1] Facts₀.bcast_S850000x1_S850000x64_0_1
          (broadcastInDim S850000x1 ![0] Facts₀.bcast_S850000_S850000x1_0 Nn))))
    (broadcastInDim S50000x64 ![0, 1] Facts₀.bcast_S1x64_S50000x64_0_1 (broadcastInDim S1x64 ![1] Facts₀.bcast_S64_S1x64_1 B))

end Cert.KernelIdeal.Host

end
-- ==== Proof.KernelHost.lean ====
/-
  What the host operations around the two dense regions leave, as functions of the arguments.

  @main's host operations come in four stretches. The first computes, from the edge array alone, the edges' sources
  and targets (the given edges and one self loop per node), the degree of every node (ones added at the targets), its
  test against zero and the reciprocal square root of the degree clamped below at 1e-12. The second (the outlined
  `where`) selects between that and zero: the nodes' inverse square-root degrees. The third picks those at both ends of
  every edge and multiplies — the edge weights —, then aggregates the node features x with them, and re-lays the first
  bias as one row: these are the arrays the first dense region reads. The fourth, after the second dense region, is the
  last round of message passing and the second bias.

  Each stretch is read against ARBITRARY buffer contents before it, with the few buffers it reads named by
  hypotheses; the stretches are then chained. These are the same operations, in the same order, as the reference's,
  so each buffer is stated as the reference's own stage function of the edge array (`val_main_v3` the sources,
  `val_main_v6` the targets, `val_main_v16` the inverse square-root degrees, `val_main_v31` the weights), and the
  reference's stages are the shared functions `wrapIdx`, `weights` of HostFunctions.lean by unfolding definitions.
-/
import proofs.«178270_j16329465660164_2_alg».proof.Proof.Gen.KernelIdeal.Frame
import proofs.«178270_j16329465660164_2_alg».proof.Proof.RefRead
import proofs.«178270_j16329465660164_2_alg».proof.Proof.LibGraphRound
import proofs.«178270_j16329465660164_2_alg».proof.Proof.HostFunctions
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

/-! ## The reference's stages as the shared functions -/

section Stages
variable (x1 : (⟨Cert.ReferenceIdeal.S2x800000, .i32⟩ : BufTy).Contents (Elt Ideal))

/-- The inverse square-root degrees: the reciprocal square root where the degree is positive, zero elsewhere. -/
theorem read_v16 : Cert.ReferenceIdeal.ReadP.val_main_v16 (F := Ideal) x1
    = select (Cert.ReferenceIdeal.ReadP.val_main_v12 (F := Ideal) x1) (Cert.ReferenceIdeal.ReadP.val_main_v15 (F := Ideal) x1)
        (broadcastInDim S50000 ![] Facts₀.bcast_S_S50000 (id (Cert.ReferenceIdeal.ReadP.val_main_cst_3 (F := Ideal)))) := rfl

/-- The source column a gather reads by. -/
theorem read_v38 : Cert.ReferenceIdeal.ReadP.val_main_v38 (F := Ideal) x1 = wrapIdx (Cert.ReferenceIdeal.ReadP.val_main_v3 (F := Ideal) x1) := rfl

/-- The target column a scatter adds at. -/
theorem read_v44 : Cert.ReferenceIdeal.ReadP.val_main_v44 (F := Ideal) x1
    = broadcastInDim S850000x1 ![0] Facts₀.bcast_S850000_S850000x1_0 (Cert.ReferenceIdeal.ReadP.val_main_v6 (F := Ideal) x1) := rfl

/-- The edge weights. -/
theorem read_v31 : Cert.ReferenceIdeal.ReadP.val_main_v31 (F := Ideal) x1
    = weights (Cert.ReferenceIdeal.ReadP.val_main_v16 (F := Ideal) x1) (Cert.ReferenceIdeal.ReadP.val_main_v3 (F := Ideal) x1) (Cert.ReferenceIdeal.ReadP.val_main_v6 (F := Ideal) x1) := rfl

end Stages

/-! ## The second stretch (the outlined `where`), from any contents -/

theorem where_v16 (V : Valuation τ sig (Elt Ideal)) (A : IVec S50000 1) (B : FVec Ideal S50000 .f32) (Z : FVec Ideal S_ .f32)
    (h12 : V (Proc.devRef .tc main_v12) = A) (h15 : V (Proc.devRef .tc main_v15) = B) (hc : V (Proc.devRef .tc main_cst_3) = Z) :
    StableHlo.after hostOps0_1 V (Proc.devRef .tc main_v16)
      = select A B (broadcastInDim S50000 ![] Facts₀.bcast_S_S50000 (id Z)) := by
  simp only [hostOps0_1]
  after_results_simp
  rw [h12, h15, hc]
  rfl

theorem keep1_v3 (V : Valuation τ sig (Elt Ideal)) :
    StableHlo.after hostOps0_1 V (Proc.devRef .tc main_v3) = V (Proc.devRef .tc main_v3) := by
  simp only [hostOps0_1]
  after_results_simp

theorem keep1_v6 (V : Valuation τ sig (Elt Ideal)) :
    StableHlo.after hostOps0_1 V (Proc.devRef .tc main_v6) = V (Proc.devRef .tc main_v6) := by
  simp only [hostOps0_1]
  after_results_simp

theorem keep1_arg0 (V : Valuation τ sig (Elt Ideal)) :
    StableHlo.after hostOps0_1 V (Proc.devRef .tc main_arg0) = V (Proc.devRef .tc main_arg0) := by
  simp only [hostOps0_1]
  after_results_simp

theorem keep1_arg2 (V : Valuation τ sig (Elt Ideal)) :
    StableHlo.after hostOps0_1 V (Proc.devRef .tc main_arg2) = V (Proc.devRef .tc main_arg2) := by
  simp only [hostOps0_1]
  after_results_simp

theorem keep1_arg3 (V : Valuation τ sig (Elt Ideal)) :
    StableHlo.after hostOps0_1 V (Proc.devRef .tc main_arg3) = V (Proc.devRef .tc main_arg3) := by
  simp only [hostOps0_1]
  after_results_simp

theorem keep1_arg4 (V : Valuation τ sig (Elt Ideal)) :
    StableHlo.after hostOps0_1 V (Proc.devRef .tc main_arg4) = V (Proc.devRef .tc main_arg4) := by
  simp only [hostOps0_1]
  after_results_simp

theorem keep1_arg5 (V : Valuation τ sig (Elt Ideal)) :
    StableHlo.after hostOps0_1 V (Proc.devRef .tc main_arg5) = V (Proc.devRef .tc main_arg5) := by
  simp only [hostOps0_1]
  after_results_simp

/-! ## The third stretch, from any contents -/

/-- The edge weights. -/
theorem edge_weights (V : Valuation τ sig (Elt Ideal)) (R C : IVec S850000 32) (D : FVec Ideal S50000 .f32)
    (h3 : V (Proc.devRef .tc main_v3) = R) (h6 : V (Proc.devRef .tc main_v6) = C) (h16 : V (Proc.devRef .tc main_v16) = D) :
    StableHlo.after hostOps0_2 V (Proc.devRef .tc main_v31) = weights D R C := by
  simp only [hostOps0_2]
  after_results_simp
  rw [h3, h6, h16]
  rfl

/-- The aggregated node features: one round of message passing over x. -/
theorem aggregated (V : Valuation τ sig (Elt Ideal)) (X : FVec Ideal S50000x128 .f32) (R C : IVec S850000 32) (D : FVec Ideal S50000 .f32)
    (h0 : V (Proc.devRef .tc main_arg0) = X) (h3 : V (Proc.devRef .tc main_v3) = R) (h6 : V (Proc.devRef .tc main_v6) = C) (h16 : V (Proc.devRef .tc main_v16) = D) :
    StableHlo.after hostOps0_2 V (Proc.devRef .tc main_v44)
      = Cert.Graph.agg Facts₀.gather_S50000x128_S850000x1_S850000x128_1_0_n_n_0_1_1128_wf
          Facts₀.scatter_S50000x128_S850000x1_S850000x128_1_0_0_1_wf Facts₀.bcast_S_S50000x128 Facts₀.bcast_S850000_S850000x1_0
          Facts₀.bcast_S850000x1_S850000x128_0_1 X (wrapIdx R)
          (broadcastInDim S850000x1 ![0] Facts₀.bcast_S850000_S850000x1_0 C) (weights D R C) := by
  simp only [hostOps0_2]
  after_results_simp
  rw [h0, h3, h6, h16]
  rfl

/-- The first bias re-laid as one row. -/
theorem bias_row (V : Valuation τ sig (Elt Ideal)) (B1 : FVec Ideal S256 .f32) (h : V (Proc.devRef .tc main_arg3) = B1) :
    StableHlo.after hostOps0_2 V (Proc.devRef .tc main_v45) = shapeCast S1x256 B1 Facts₀.shapeCasts_S256_S1x256 := by
  simp only [hostOps0_2]
  after_results_simp
  rw [h]
  rfl

theorem keep2_v3 (V : Valuation τ sig (Elt Ideal)) :
    StableHlo.after hostOps0_2 V (Proc.devRef .tc main_v3) = V (Proc.devRef .tc main_v3) := by
  simp only [hostOps0_2]
  after_results_simp

theorem keep2_v6 (V : Valuation τ sig (Elt Ideal)) :
    StableHlo.after hostOps0_2 V (Proc.devRef .tc main_v6) = V (Proc.devRef .tc main_v6) := by
  simp only [hostOps0_2]
  after_results_simp

theorem keep2_arg2 (V : Valuation τ sig (Elt Ideal)) :
    StableHlo.after hostOps0_2 V (Proc.devRef .tc main_arg2) = V (Proc.devRef .tc main_arg2) := by
  simp only [hostOps0_2]
  after_results_simp

theorem keep2_arg4 (V : Valuation τ sig (Elt Ideal)) :
    StableHlo.after hostOps0_2 V (Proc.devRef .tc main_arg4) = V (Proc.devRef .tc main_arg4) := by
  simp only [hostOps0_2]
  after_results_simp

theorem keep2_arg5 (V : Valuation τ sig (Elt Ideal)) :
    StableHlo.after hostOps0_2 V (Proc.devRef .tc main_arg5) = V (Proc.devRef .tc main_arg5) := by
  simp only [hostOps0_2]
  after_results_simp

/-! ## The last stretch, from any contents -/

set_option maxHeartbeats 1000000 in
theorem last_stretch (V : Valuation τ sig (Elt Ideal)) (H2 : FVec Ideal S50000x64 .f32) (R C : IVec S850000 32)
    (Nn : FVec Ideal S850000 .f32) (B : FVec Ideal S64 .f32)
    (h47 : V (Proc.devRef .tc main_v47) = H2) (h3 : V (Proc.devRef .tc main_v3) = R) (h6 : V (Proc.devRef .tc main_v6) = C)
    (h31 : V (Proc.devRef .tc main_v31) = Nn) (h5 : V (Proc.devRef .tc main_arg5) = B) :
    StableHlo.after hostOps2 V (Proc.devRef .tc main_v63) = tail H2 R C Nn B := by
  simp only [hostOps2]
  after_results_simp
  rw [h47, h3, h6, h31, h5]
  rfl

/-! ## The chain from the launch memory -/

variable (m : (ℓ : Loc nD τ sig) → Buf (Elt Ideal) ℓ) (ρ : Dev nD → PrngReg)

/-! ### After the first stretch -/

theorem W1_v3 (c : Dev nD) : W1 m ρ c (Proc.devRef .tc main_v3) = Cert.ReferenceIdeal.ReadP.val_main_v3 (F := Ideal) (m ((c.tc : Thread nD τ).loc main_arg1)) := by
  show StableHlo.after hostOps0 (W0 m ρ c) (Proc.devRef .tc main_v3) = _
  simp only [hostOps0]
  after_results_simp
  rfl

theorem W1_v6 (c : Dev nD) : W1 m ρ c (Proc.devRef .tc main_v6) = Cert.ReferenceIdeal.ReadP.val_main_v6 (F := Ideal) (m ((c.tc : Thread nD τ).loc main_arg1)) := by
  show StableHlo.after hostOps0 (W0 m ρ c) (Proc.devRef .tc main_v6) = _
  simp only [hostOps0]
  after_results_simp
  rfl

theorem W1_v12 (c : Dev nD) : W1 m ρ c (Proc.devRef .tc main_v12) = Cert.ReferenceIdeal.ReadP.val_main_v12 (F := Ideal) (m ((c.tc : Thread nD τ).loc main_arg1)) := by
  show StableHlo.after hostOps0 (W0 m ρ c) (Proc.devRef .tc main_v12) = _
  simp only [hostOps0]
  after_results_simp
  rfl

theorem W1_v15 (c : Dev nD) : W1 m ρ c (Proc.devRef .tc main_v15) = Cert.ReferenceIdeal.ReadP.val_main_v15 (F := Ideal) (m ((c.tc : Thread nD τ).loc main_arg1)) := by
  show StableHlo.after hostOps0 (W0 m ρ c) (Proc.devRef .tc main_v15) = _
  simp only [hostOps0]
  after_results_simp
  rfl

theorem W1_cst3 (c : Dev nD) : W1 m ρ c (Proc.devRef .tc main_cst_3) = Cert.ReferenceIdeal.ReadP.val_main_cst_3 (F := Ideal) := by
  show StableHlo.after hostOps0 (W0 m ρ c) (Proc.devRef .tc main_cst_3) = _
  simp only [hostOps0]
  after_results_simp
  rfl

theorem W1_arg0 (c : Dev nD) : W1 m ρ c (Proc.devRef .tc main_arg0) = (m ((c.tc : Thread nD τ).loc main_arg0)) := by
  show StableHlo.after hostOps0 (W0 m ρ c) (Proc.devRef .tc main_arg0) = _
  simp only [hostOps0]
  after_results_simp

theorem W1_arg2 (c : Dev nD) : W1 m ρ c (Proc.devRef .tc main_arg2) = (m ((c.tc : Thread nD τ).loc main_arg2)) := by
  show StableHlo.after hostOps0 (W0 m ρ c) (Proc.devRef .tc main_arg2) = _
  simp only [hostOps0]
  after_results_simp

theorem W1_arg3 (c : Dev nD) : W1 m ρ c (Proc.devRef .tc main_arg3) = (m ((c.tc : Thread nD τ).loc main_arg3)) := by
  show StableHlo.after hostOps0 (W0 m ρ c) (Proc.devRef .tc main_arg3) = _
  simp only [hostOps0]
  after_results_simp

theorem W1_arg4 (c : Dev nD) : W1 m ρ c (Proc.devRef .tc main_arg4) = (m ((c.tc : Thread nD τ).loc main_arg4)) := by
  show StableHlo.after hostOps0 (W0 m ρ c) (Proc.devRef .tc main_arg4) = _
  simp only [hostOps0]
  after_results_simp

theorem W1_arg5 (c : Dev nD) : W1 m ρ c (Proc.devRef .tc main_arg5) = (m ((c.tc : Thread nD τ).loc main_arg5)) := by
  show StableHlo.after hostOps0 (W0 m ρ c) (Proc.devRef .tc main_arg5) = _
  simp only [hostOps0]
  after_results_simp

/-! ### After the second stretch -/

theorem W2_v16 (c : Dev nD) : W2 m ρ c (Proc.devRef .tc main_v16) = Cert.ReferenceIdeal.ReadP.val_main_v16 (F := Ideal) (m ((c.tc : Thread nD τ).loc main_arg1)) :=
  (where_v16 (W1 m ρ c) _ _ _ (W1_v12 m ρ c) (W1_v15 m ρ c) (W1_cst3 m ρ c)).trans (read_v16 _).symm
theorem W2_v3 (c : Dev nD) : W2 m ρ c (Proc.devRef .tc main_v3) = Cert.ReferenceIdeal.ReadP.val_main_v3 (F := Ideal) (m ((c.tc : Thread nD τ).loc main_arg1)) :=
  (keep1_v3 (W1 m ρ c)).trans (W1_v3 m ρ c)
theorem W2_v6 (c : Dev nD) : W2 m ρ c (Proc.devRef .tc main_v6) = Cert.ReferenceIdeal.ReadP.val_main_v6 (F := Ideal) (m ((c.tc : Thread nD τ).loc main_arg1)) :=
  (keep1_v6 (W1 m ρ c)).trans (W1_v6 m ρ c)
theorem W2_arg0 (c : Dev nD) : W2 m ρ c (Proc.devRef .tc main_arg0) = (m ((c.tc : Thread nD τ).loc main_arg0)) :=
  (keep1_arg0 (W1 m ρ c)).trans (W1_arg0 m ρ c)
theorem W2_arg2 (c : Dev nD) : W2 m ρ c (Proc.devRef .tc main_arg2) = (m ((c.tc : Thread nD τ).loc main_arg2)) :=
  (keep1_arg2 (W1 m ρ c)).trans (W1_arg2 m ρ c)
theorem W2_arg3 (c : Dev nD) : W2 m ρ c (Proc.devRef .tc main_arg3) = (m ((c.tc : Thread nD τ).loc main_arg3)) :=
  (keep1_arg3 (W1 m ρ c)).trans (W1_arg3 m ρ c)
theorem W2_arg4 (c : Dev nD) : W2 m ρ c (Proc.devRef .tc main_arg4) = (m ((c.tc : Thread nD τ).loc main_arg4)) :=
  (keep1_arg4 (W1 m ρ c)).trans (W1_arg4 m ρ c)
theorem W2_arg5 (c : Dev nD) : W2 m ρ c (Proc.devRef .tc main_arg5) = (m ((c.tc : Thread nD τ).loc main_arg5)) :=
  (keep1_arg5 (W1 m ρ c)).trans (W1_arg5 m ρ c)

/-! ### At the first region's entry -/

/-- The edges' sources. -/
theorem W3_v3 (c : Dev nD) : W3 m ρ c (Proc.devRef .tc main_v3) = Cert.ReferenceIdeal.ReadP.val_main_v3 (F := Ideal) (m ((c.tc : Thread nD τ).loc main_arg1)) :=
  (keep2_v3 (W2 m ρ c)).trans (W2_v3 m ρ c)
/-- The edges' targets. -/
theorem W3_v6 (c : Dev nD) : W3 m ρ c (Proc.devRef .tc main_v6) = Cert.ReferenceIdeal.ReadP.val_main_v6 (F := Ideal) (m ((c.tc : Thread nD τ).loc main_arg1)) :=
  (keep2_v6 (W2 m ρ c)).trans (W2_v6 m ρ c)
/-- The edges' weights. -/
theorem W3_v31 (c : Dev nD) : W3 m ρ c (Proc.devRef .tc main_v31) = Cert.ReferenceIdeal.ReadP.val_main_v31 (F := Ideal) (m ((c.tc : Thread nD τ).loc main_arg1)) :=
  (edge_weights (W2 m ρ c) _ _ _ (W2_v3 m ρ c) (W2_v6 m ρ c) (W2_v16 m ρ c)).trans (read_v31 _).symm
/-- The aggregated node features. -/
theorem W3_v44 (c : Dev nD) : W3 m ρ c (Proc.devRef .tc main_v44)
    = Cert.Graph.agg Facts₀.gather_S50000x128_S850000x1_S850000x128_1_0_n_n_0_1_1128_wf
        Facts₀.scatter_S50000x128_S850000x1_S850000x128_1_0_0_1_wf Facts₀.bcast_S_S50000x128 Facts₀.bcast_S850000_S850000x1_0
        Facts₀.bcast_S850000x1_S850000x128_0_1 (m ((c.tc : Thread nD τ).loc main_arg0))
        (Cert.ReferenceIdeal.ReadP.val_main_v38 (F := Ideal) (m ((c.tc : Thread nD τ).loc main_arg1))) (Cert.ReferenceIdeal.ReadP.val_main_v44 (F := Ideal) (m ((c.tc : Thread nD τ).loc main_arg1))) (Cert.ReferenceIdeal.ReadP.val_main_v31 (F := Ideal) (m ((c.tc : Thread nD τ).loc main_arg1))) := by
  rw [read_v38, read_v44, read_v31]
  exact aggregated (W2 m ρ c) _ _ _ _ (W2_arg0 m ρ c) (W2_v3 m ρ c) (W2_v6 m ρ c) (W2_v16 m ρ c)
/-- The first bias re-laid as one row. -/
theorem W3_v45 (c : Dev nD) : W3 m ρ c (Proc.devRef .tc main_v45) = shapeCast S1x256 (m ((c.tc : Thread nD τ).loc main_arg3)) Facts₀.shapeCasts_S256_S1x256 :=
  bias_row (W2 m ρ c) _ (W2_arg3 m ρ c)
theorem W3_arg2 (c : Dev nD) : W3 m ρ c (Proc.devRef .tc main_arg2) = (m ((c.tc : Thread nD τ).loc main_arg2)) :=
  (keep2_arg2 (W2 m ρ c)).trans (W2_arg2 m ρ c)
theorem W3_arg4 (c : Dev nD) : W3 m ρ c (Proc.devRef .tc main_arg4) = (m ((c.tc : Thread nD τ).loc main_arg4)) :=
  (keep2_arg4 (W2 m ρ c)).trans (W2_arg4 m ρ c)
theorem W3_arg5 (c : Dev nD) : W3 m ρ c (Proc.devRef .tc main_arg5) = (m ((c.tc : Thread nD τ).loc main_arg5)) :=
  (keep2_arg5 (W2 m ρ c)).trans (W2_arg5 m ρ c)

/-! ### After the second region: neither region writes these buffers -/

theorem W5_v3 (c : Dev nD) : W5 m ρ c (Proc.devRef .tc main_v3) = Cert.ReferenceIdeal.ReadP.val_main_v3 (F := Ideal) (m ((c.tc : Thread nD τ).loc main_arg1)) :=
  (W5_of_ne m ρ c main_v3 (by decide)).trans ((W4_of_ne m ρ c main_v3 (by decide)).trans (W3_v3 m ρ c))
theorem W5_v6 (c : Dev nD) : W5 m ρ c (Proc.devRef .tc main_v6) = Cert.ReferenceIdeal.ReadP.val_main_v6 (F := Ideal) (m ((c.tc : Thread nD τ).loc main_arg1)) :=
  (W5_of_ne m ρ c main_v6 (by decide)).trans ((W4_of_ne m ρ c main_v6 (by decide)).trans (W3_v6 m ρ c))
theorem W5_v31 (c : Dev nD) : W5 m ρ c (Proc.devRef .tc main_v31) = Cert.ReferenceIdeal.ReadP.val_main_v31 (F := Ideal) (m ((c.tc : Thread nD τ).loc main_arg1)) :=
  (W5_of_ne m ρ c main_v31 (by decide)).trans ((W4_of_ne m ρ c main_v31 (by decide)).trans (W3_v31 m ρ c))
theorem W5_arg5 (c : Dev nD) : W5 m ρ c (Proc.devRef .tc main_arg5) = (m ((c.tc : Thread nD τ).loc main_arg5)) :=
  (W5_of_ne m ρ c main_arg5 (by decide)).trans ((W4_of_ne m ρ c main_arg5 (by decide)).trans (W3_arg5 m ρ c))
theorem W4_arg4 (c : Dev nD) : W4 m ρ c (Proc.devRef .tc main_arg4) = (m ((c.tc : Thread nD τ).loc main_arg4)) :=
  (W4_of_ne m ρ c main_arg4 (by decide)).trans (W3_arg4 m ρ c)

/-! ### The result -/

/-- The result buffer at the end of @main: `tail` of whatever the second region left. -/
theorem W6_v63 (c : Dev nD) (H2 : FVec Ideal S50000x64 .f32) (hH2 : W5 m ρ c (Proc.devRef .tc main_v47) = H2) :
    W6 m ρ c (Proc.devRef .tc main_v63)
      = tail H2 (Cert.ReferenceIdeal.ReadP.val_main_v3 (F := Ideal) (m ((c.tc : Thread nD τ).loc main_arg1))) (Cert.ReferenceIdeal.ReadP.val_main_v6 (F := Ideal) (m ((c.tc : Thread nD τ).loc main_arg1)))
          (Cert.ReferenceIdeal.ReadP.val_main_v31 (F := Ideal) (m ((c.tc : Thread nD τ).loc main_arg1))) (m ((c.tc : Thread nD τ).loc main_arg5)) :=
  last_stretch (W5 m ρ c) _ _ _ _ _ hH2 (W5_v3 m ρ c) (W5_v6 m ρ c) (W5_v31 m ρ c) (W5_arg5 m ρ c)

end Cert.KernelIdeal.Host

end
-- ==== Proof.HiddenBlocks.lean ====
/-
  The first dense layer, block by block.

  The first region of the kernel works on five bands of 10000 rows. At a band it holds 10000 rows of an array A
  (50000 × 128), all of W (128 × 256) and the one row b (1 × 256), and it stores, for each of its rows p and each
  column q,

      max (∑ k, A (p, k) · W (k, q) + b (0, q)) 0 .

  Row p of band t is row 10000·t + p of the array, W and b are the same at every band, and entry (p, q) depends on
  row p of A only. So what a band stores is that band of rows of ONE function `hidden A W b` of the whole arrays, and
  since the five bands tile the 50000 rows, the result array ends equal to `hidden A W b`, whatever A, W and b were
  when the region was entered.
-/
import proofs.«178270_j16329465660164_2_alg».proof.Proof.Gen.KernelIdeal.Frame
import proofs.«178270_j16329465660164_2_alg».proof.Proof.LibMatProd
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hidden

open Cert.KernelIdeal Cert.KernelIdeal.Gen Idealize.ShloMosaic Idealize.ShloMosaic.TcCoe Idealize.SL.Sem
open Idealize.ShloMosaic.ValueIdx
open Idealize.ShloMosaic.Pipeline (Dat)
open Cert.LibPlainDot Cert.LibMatProd

/-- Rows times columns, plus one row added to every row, clamped below at zero. -/
def hidden {M K N : ℕ} (A : FVec Ideal ⟨2, ![M, K]⟩ .f32) (W : FVec Ideal ⟨2, ![K, N]⟩ .f32) (B : FVec Ideal ⟨2, ![1, N]⟩ .f32) :
    FVec Ideal ⟨2, ![M, N]⟩ .f32 :=
  fun i => max (matProd A W i + B (ix2 (0 : Fin 1) (i 1))) (Ideal.ofBits .f32 0x00000000#32)

theorem hidden_apply {M K N : ℕ} (A : FVec Ideal ⟨2, ![M, K]⟩ .f32) (W : FVec Ideal ⟨2, ![K, N]⟩ .f32) (B : FVec Ideal ⟨2, ![1, N]⟩ .f32)
    (p : Fin M) (q : Fin N) :
    hidden A W B (ix2 p q) = max (matProd A W (ix2 p q) + B (ix2 (0 : Fin 1) q)) (Ideal.ofBits .f32 0x00000000#32) := rfl

/-- A band of T rows: when x holds rows r … r + T − 1 of X, and w, b are W, B, the band's entry at y is `hidden X W B`
    at the array index whose row is r plus y's row and whose column is y's. -/
theorem hidden_rows {M K N T : ℕ} (X : FVec Ideal ⟨2, ![M, K]⟩ .f32) (W : FVec Ideal ⟨2, ![K, N]⟩ .f32) (B : FVec Ideal ⟨2, ![1, N]⟩ .f32)
    (x : FVec Ideal ⟨2, ![T, K]⟩ .f32) (w : FVec Ideal ⟨2, ![K, N]⟩ .f32) (b : FVec Ideal ⟨2, ![1, N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    hidden x w b y = hidden X W B i := by
  have hm := matProd_rows X W x w r hx hw y i hi0 hi1
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h1 : q' = q := Fin.ext hi1
  subst h1
  rw [hidden_apply, hidden_apply, hm, hb]

/-! ## What a band computes -/

/-- The body's arithmetic at a band is `hidden` of the three blocks it loads. -/
theorem pay_eq (x0 : Vec Ideal S10000x128 .f32) (x1 : Vec Ideal S128x256 .f32) (x2 : Vec Ideal S1x256 .f32) :
    k0_pay1 (F := Ideal) x0 x1 x2 = hidden x0 x1 x2 := by
  funext j
  obtain ⟨p, q, rfl⟩ : ∃ (p : Fin 10000) (q : Fin 256), j = ix2 p q := ⟨j 0, j 1, eq_ix2 j⟩
  unfold k0_pay1
  simp only [shapeCast_self]
  rw [hidden_apply, maximumf_apply, addf_apply, broadcast_apply, broadcastTo_1b_ab_apply, matProd_apply]
  refine congrArg₂ max (congrArg (· + x2 (ix2 (0 : Fin 1) q)) ?_) rfl
  refine (Ideal.matmul_constant_zero_apply _ _ _ _ (ix2 p q)).trans ?_
  exact plain_sum _ rfl rfl rfl rfl rfl rfl x0 x1 p q

/-! ## From bands to the array -/

theorem hz : (![0, 0] : Fin 2 → Nat) = fun _ => 0 := funext fun a => by fin_cases a <;> rfl

/-- The printed index maps over the five bands: the row band of A moves with the result's, W and b stay put. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 4 :=
  (by decide +kernel : ∀ t : Fin grid0.N, _)

/-- Every band of rows is some point's. -/
theorem idx_onto : ∀ (q0 : Fin 5), ∃ t : Fin cfg0.N, win0_3.index t = ![q0.val, 0] :=
  (by decide +kernel : ∀ (q0 : Fin 5), ∃ t : Fin grid0.N, win0_3.index t = ![q0.val, 0])

variable (V : (c : Dev nD) → (b : Ref sig .tc) → Buf (Elt Ideal) ((c : Thread nD τ).loc b))

/-- What point t writes back is band t of `hidden` of the arrays as the region finds them. -/
theorem flushed_eq (c : Dev nD) (t : Fin cfg0.N) :
    (dat0 V c).flushed 3 t
      = ((cfg0.win 3).blk t).view.read (Elt Ideal) (hidden (V c main_v44) (V c main_arg2) (V c main_v45)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x256) hz, View.ld_unit_zero (S := S1x256) hz]
  rw [pay_eq]
  obtain ⟨e0, e1, e2, e3, e4, e5, e6, e7⟩ := idx_facts t
  funext y
  show hidden (iblk0 V c 0 t) (iblk0 V c 1 t) (iblk0 V c 2 t) y
    = hidden (V c main_v44) (V c main_arg2) (V c main_v45) (((cfg0.win 3).blk t).view.emb y)
  refine hidden_rows (V c main_v44) (V c main_arg2) (V c main_v45) (iblk0 V c 0 t) (iblk0 V c 1 t) (iblk0 V c 2 t)
    (win0_3.index t (0 : Fin 2) * 10000) ?_ ?_ ?_ y (((cfg0.win 3).blk t).view.emb y) ?_ ?_
  · intro p k hp
    show V c main_v44 (((cfg0.win 0).blk t).view.emb (ix2 p k)) = V c main_v44 (ix2 ⟨win0_3.index t (0 : Fin 2) * 10000 + p.val, hp⟩ k)
    refine congrArg _ (funext fun a => Fin.ext ?_)
    match a with
    | ⟨0, _⟩ => show win0_0.index t (0 : Fin 2) * 10000 + 1 * p.val = win0_3.index t (0 : Fin 2) * 10000 + p.val; omega
    | ⟨1, _⟩ => show win0_0.index t (1 : Fin 2) * 128 + 1 * k.val = k.val; omega
  · intro z
    show V c main_arg2 (((cfg0.win 1).blk t).view.emb z) = V c main_arg2 z
    refine congrArg _ (funext fun a => Fin.ext ?_)
    match a with
    | ⟨0, _⟩ => show win0_1.index t (0 : Fin 2) * 128 + 1 * (z 0).val = (z 0).val; omega
    | ⟨1, _⟩ => show win0_1.index t (1 : Fin 2) * 256 + 1 * (z 1).val = (z 1).val; omega
  · intro z
    show V c main_v45 (((cfg0.win 2).blk t).view.emb z) = V c main_v45 z
    refine congrArg _ (funext fun a => Fin.ext ?_)
    match a with
    | ⟨0, _⟩ => show win0_2.index t (0 : Fin 2) * 1 + 1 * (z 0).val = (z 0).val; omega
    | ⟨1, _⟩ => show win0_2.index t (1 : Fin 2) * 256 + 1 * (z 1).val = (z 1).val; omega
  · show win0_3.index t (0 : Fin 2) * 10000 + 1 * (y 0).val = win0_3.index t (0 : Fin 2) * 10000 + (y 0).val; omega
  · show win0_3.index t (1 : Fin 2) * 256 + 1 * (y 1).val = (y 1).val; omega

/-- An index of the result array is in point t's band iff each coordinate is in the band's range on its axis. -/
theorem mem_blk (t : Fin cfg0.N) (i : S50000x256.Idx) :
    i ∈ ((cfg0.win 3).blk t).view.set ↔ ∀ a : Fin 2, win0_3.index t a * S10000x256.size a ≤ (i a).val
      ∧ (i a).val < win0_3.index t a * S10000x256.size a + S10000x256.size a := by
  show i ∈ ((View.whole main_v46).slice (win0_3.rect t)).set ↔ _
  rw [View.set_slice_whole, Rect.mem_set_unit]
  exact Iff.rfl

/-- The five bands tile the result: row r is in band r / 10000. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 256 ≤ (i 1).val ∧ (i 1).val < win0_3.index t (1 : Fin 2) * 256 + 256; omega

/-- The result array after the region: `hidden` of the three arrays as the region found them. -/
theorem final (c : Dev nD) :
    (dat0 V c).arrAt 3 cfg0.N = hidden (V c main_v44) (V c main_arg2) (V c main_v45) :=
  (dat0 V c).arrAt_eq_of_cover 3 _ (fun t _ => flushed_eq V c t) cover

end Cert.KernelIdeal.Hidden

end
-- ==== Proof.OutBlocks.lean ====
/-
  The second dense product, block by block.

  The second region works on five bands of 10000 rows of an array H (50000 × 256) with all of W (256 × 64), and stores
  at row p, column q of a band the sum over k of H (p, k) · W (k, q). Row p of band t is row 10000·t + p of the array, so
  a band stores that band of rows of the matrix product of the whole arrays; the five bands tile the 50000 rows, so the
  result array ends equal to the product, whatever H and W were when the region was entered.
-/
import proofs.«178270_j16329465660164_2_alg».proof.Proof.Gen.KernelIdeal.Frame
import proofs.«178270_j16329465660164_2_alg».proof.Proof.LibMatProd
import Idealize.ShloMosaic.Lib.Pipeline.Value
import Idealize.ShloMosaic.Lib.ValueIdx
import Idealize.ShloMosaic.PureOps.Ideal.Laws

noncomputable section

namespace Cert.KernelIdeal.Out

open Cert.KernelIdeal Cert.KernelIdeal.Gen Idealize.ShloMosaic Idealize.ShloMosaic.TcCoe Idealize.SL.Sem
open Idealize.ShloMosaic.ValueIdx
open Idealize.ShloMosaic.Pipeline (Dat)
open Cert.LibPlainDot Cert.LibMatProd

/-- The body's arithmetic at a band is the matrix product of the two blocks it loads. -/
theorem pay_eq (x0 : Vec Ideal S10000x256 .f32) (x1 : Vec Ideal S256x64 .f32) :
    k1_pay1 (F := Ideal) x0 x1 = matProd x0 x1 := by
  funext j
  obtain ⟨p, q, rfl⟩ : ∃ (p : Fin 10000) (q : Fin 64), j = ix2 p q := ⟨j 0, j 1, eq_ix2 j⟩
  unfold k1_pay1
  simp only [shapeCast_self]
  rw [matProd_apply]
  refine (Ideal.matmul_constant_zero_apply _ _ _ _ (ix2 p q)).trans ?_
  exact plain_sum _ rfl rfl rfl rfl rfl rfl x0 x1 p q

theorem hz : (![0, 0] : Fin 2 → Nat) = fun _ => 0 := funext fun a => by fin_cases a <;> rfl

/-- The printed index maps over the five bands: the row band of H moves with the result's, W stays put. -/
theorem idx_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 4 :=
  (by decide +kernel : ∀ t : Fin grid1.N, _)

/-- Every band of rows is some point's. -/
theorem idx_onto : ∀ (q0 : Fin 5), ∃ t : Fin cfg1.N, win1_2.index t = ![q0.val, 0] :=
  (by decide +kernel : ∀ (q0 : Fin 5), ∃ t : Fin grid1.N, win1_2.index t = ![q0.val, 0])

variable (V : (c : Dev nD) → (b : Ref sig .tc) → Buf (Elt Ideal) ((c : Thread nD τ).loc b))

/-- What point t writes back is band t of the product of the arrays as the region finds them. -/
theorem flushed_eq (c : Dev nD) (t : Fin cfg1.N) :
    (dat1 V c).flushed 2 t
      = ((cfg1.win 2).blk t).view.read (Elt Ideal) (matProd (V c main_v46) (V c main_arg4)) := by
  show (cfg1.win 2).cut (grid1.coords t) ((dat1 V c).after 2 t) = _
  rw [after1_2]
  unfold out1_2
  rw [View.canon_unit_zero hz]
  simp only [View.ld_unit_zero (S := S10000x256) hz, View.ld_unit_zero (S := S256x64) hz]
  rw [pay_eq]
  obtain ⟨e0, e1, e2, e3, e4, e5⟩ := idx_facts t
  funext y
  show matProd (iblk1 V c 0 t) (iblk1 V c 1 t) y
    = matProd (V c main_v46) (V c main_arg4) (((cfg1.win 2).blk t).view.emb y)
  refine matProd_rows (V c main_v46) (V c main_arg4) (iblk1 V c 0 t) (iblk1 V c 1 t)
    (win1_2.index t (0 : Fin 2) * 10000) ?_ ?_ y (((cfg1.win 2).blk t).view.emb y) ?_ ?_
  · intro p k hp
    show V c main_v46 (((cfg1.win 0).blk t).view.emb (ix2 p k)) = V c main_v46 (ix2 ⟨win1_2.index t (0 : Fin 2) * 10000 + p.val, hp⟩ k)
    refine congrArg _ (funext fun a => Fin.ext ?_)
    match a with
    | ⟨0, _⟩ => show win1_0.index t (0 : Fin 2) * 10000 + 1 * p.val = win1_2.index t (0 : Fin 2) * 10000 + p.val; omega
    | ⟨1, _⟩ => show win1_0.index t (1 : Fin 2) * 256 + 1 * k.val = k.val; omega
  · intro z
    show V c main_arg4 (((cfg1.win 1).blk t).view.emb z) = V c main_arg4 z
    refine congrArg _ (funext fun a => Fin.ext ?_)
    match a with
    | ⟨0, _⟩ => show win1_1.index t (0 : Fin 2) * 256 + 1 * (z 0).val = (z 0).val; omega
    | ⟨1, _⟩ => show win1_1.index t (1 : Fin 2) * 64 + 1 * (z 1).val = (z 1).val; omega
  · show win1_2.index t (0 : Fin 2) * 10000 + 1 * (y 0).val = win1_2.index t (0 : Fin 2) * 10000 + (y 0).val; omega
  · show win1_2.index t (1 : Fin 2) * 64 + 1 * (y 1).val = (y 1).val; omega

/-- An index of the result array is in point t's band iff each coordinate is in the band's range on its axis. -/
theorem mem_blk (t : Fin cfg1.N) (i : S50000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47).slice (win1_2.rect t)).set ↔ _
  rw [View.set_slice_whole, Rect.mem_set_unit]
  exact Iff.rfl

/-- The five bands tile the result: row r is in band r / 10000. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the region: the matrix product of the two arrays as the region found them. -/
theorem final (c : Dev nD) :
    (dat1 V c).arrAt 2 cfg1.N = matProd (V c main_v46) (V c main_arg4) :=
  (dat1 V c).arrAt_eq_of_cover 2 _ (fun t _ => flushed_eq V c t) cover

end Cert.KernelIdeal.Out

end
-- ==== Proof.Bridge.lean ====
/-
  The two programs are one function of the arguments.

  Write X for the node features, W₁, b₁, W₂, b₂ for the weights, and let `agg` be one round of message passing with the
  edges' sources, targets and weights computed from the edge array (LibGraphRound.lean). The kernel computes

      tail (max (agg X · W₁ + b₁) 0 · W₂)          — aggregate first, then the dense layer —

  and the reference

      tail (max (agg (X · W₁) + b₁) 0 · W₂)        — the dense product first, then aggregate —,

  with the same `tail` (gather, scale, add at the targets, add b₂). They agree as soon as `agg X · W₁ = agg (X · W₁)`,
  which holds when X, W₁ and the edge weights are real (`matProd_agg`). Everything after that first layer is the same
  text on both sides and is never opened.

  Here: the reference's stage functions rewritten in that vocabulary (each by unfolding definitions), the first layers'
  equality, and the second products' equality.
-/
import proofs.«178270_j16329465660164_2_alg».proof.Proof.RefRead
import proofs.«178270_j16329465660164_2_alg».proof.Proof.LibGraphRound
import proofs.«178270_j16329465660164_2_alg».proof.Proof.HiddenBlocks
import proofs.«178270_j16329465660164_2_alg».proof.Proof.HostFunctions
import Idealize.ShloMosaic.Lib.ValueLayout

noncomputable section

namespace Cert.Bridge

open Idealize.ShloMosaic Idealize.ShloMosaic.ValueIdx
open Cert.LibMatProd Cert.Graph Cert.KernelIdeal.Hidden
open Cert.ReferenceIdeal.ReadP

variable (x0 : (⟨Cert.ReferenceIdeal.S50000x128, .f32⟩ : BufTy).Contents (Elt Ideal)) (x1 : (⟨Cert.ReferenceIdeal.S2x800000, .i32⟩ : BufTy).Contents (Elt Ideal))
  (x2 : (⟨Cert.ReferenceIdeal.S128x256, .f32⟩ : BufTy).Contents (Elt Ideal)) (x3 : (⟨Cert.ReferenceIdeal.S256, .f32⟩ : BufTy).Contents (Elt Ideal))
  (x4 : (⟨Cert.ReferenceIdeal.S256x64, .f32⟩ : BufTy).Contents (Elt Ideal)) (x5 : (⟨Cert.ReferenceIdeal.S64, .f32⟩ : BufTy).Contents (Elt Ideal))

/-- The reference ends with `tail` of its second product. -/
theorem ref_tail :
    val_main_v66 (F := Ideal) x0 x1 x2 x3 x4 x5
      = Cert.KernelIdeal.Host.tail (val_main_v50 (F := Ideal) x0 x1 x2 x3 x4) (val_main_v3 (F := Ideal) x1)
          (val_main_v6 (F := Ideal) x1) (val_main_v31 (F := Ideal) x1) x5 := rfl

/-- The reference's first product is the matrix product X · W₁. -/
theorem ref_first_product : val_main_v32 (F := Ideal) x0 x2 = matProd x0 x2 := by
  unfold val_main_v32
  exact host_dot_eq _ rfl rfl rfl rfl rfl rfl x0 x2

/-- The reference aggregates its first product. -/
theorem ref_agg :
    val_main_v45 (F := Ideal) x0 x1 x2
      = agg Cert.ReferenceIdeal.Facts₀.gather_S50000x256_S850000x1_S850000x256_1_0_n_n_0_1_1256_wf
          Cert.ReferenceIdeal.Facts₀.scatter_S50000x256_S850000x1_S850000x256_1_0_0_1_wf Cert.ReferenceIdeal.Facts₀.bcast_S_S50000x256
          Cert.ReferenceIdeal.Facts₀.bcast_S850000_S850000x1_0 Cert.ReferenceIdeal.Facts₀.bcast_S850000x1_S850000x256_0_1
          (val_main_v32 (F := Ideal) x0 x2) (val_main_v38 (F := Ideal) x1) (val_main_v44 (F := Ideal) x1)
          (val_main_v31 (F := Ideal) x1) := rfl

/-- The reference's second product is the matrix product of its hidden layer with W₂. -/
theorem ref_second_product :
    val_main_v50 (F := Ideal) x0 x1 x2 x3 x4 = matProd (val_main_v49 (F := Ideal) x0 x1 x2 x3) x4 := by
  unfold val_main_v50
  exact host_dot_eq _ rfl rfl rfl rfl rfl rfl _ x4

/-- THE FIRST LAYERS AGREE: the kernel's `max (agg X · W₁ + b₁) 0` is the reference's `max (agg (X · W₁) + b₁) 0`, for
    real features, real weights W₁ and real edge weights. -/
theorem hidden_eq (hX : ∀ i, ∃ r : ℝ, x0 i = r) (hW : ∀ i, ∃ r : ℝ, x2 i = r)
    (hn : ∀ i, ∃ r : ℝ, val_main_v31 (F := Ideal) x1 i = r) :
    hidden
        (agg Cert.KernelIdeal.Facts₀.gather_S50000x128_S850000x1_S850000x128_1_0_n_n_0_1_1128_wf
          Cert.KernelIdeal.Facts₀.scatter_S50000x128_S850000x1_S850000x128_1_0_0_1_wf Cert.KernelIdeal.Facts₀.bcast_S_S50000x128
          Cert.KernelIdeal.Facts₀.bcast_S850000_S850000x1_0 Cert.KernelIdeal.Facts₀.bcast_S850000x1_S850000x128_0_1
          x0 (val_main_v38 (F := Ideal) x1) (val_main_v44 (F := Ideal) x1) (val_main_v31 (F := Ideal) x1))
        x2 (shapeCast Cert.KernelIdeal.S1x256 x3 Cert.KernelIdeal.Facts₀.shapeCasts_S256_S1x256)
      = val_main_v49 (F := Ideal) x0 x1 x2 x3 := by
  funext i
  obtain ⟨n, j, rfl⟩ : ∃ (n : Fin 50000) (j : Fin 256), i = ix2 n j := ⟨i 0, i 1, eq_ix2 i⟩
  rw [val_main_v49_apply, val_main_v48_apply, val_main_v47_apply, val_main_v46_apply, val_main_call1_v0_apply,
    val_main_call1_cst_apply, ref_agg, ref_first_product]
  rw [hidden_apply, matProd_agg (by decide) _ _ _ _
    Cert.ReferenceIdeal.Facts₀.gather_S50000x256_S850000x1_S850000x256_1_0_n_n_0_1_1256_wf
    Cert.ReferenceIdeal.Facts₀.scatter_S50000x256_S850000x1_S850000x256_1_0_0_1_wf Cert.ReferenceIdeal.Facts₀.bcast_S_S50000x256
    Cert.ReferenceIdeal.Facts₀.bcast_S850000x1_S850000x256_0_1 _ x0 x2 _ _ _ hX hW hn, shapeCast_a_1a_apply]
  have hb : idx_main_v46 (idx_main_v47 (ix2 n j)) = ix1 j := funext fun a => match a with | ⟨0, _⟩ => rfl
  rw [hb]
  rfl

/-- So the second products agree. -/
theorem second_eq (hX : ∀ i, ∃ r : ℝ, x0 i = r) (hW : ∀ i, ∃ r : ℝ, x2 i = r)
    (hn : ∀ i, ∃ r : ℝ, val_main_v31 (F := Ideal) x1 i = r) :
    matProd
        (hidden
          (agg Cert.KernelIdeal.Facts₀.gather_S50000x128_S850000x1_S850000x128_1_0_n_n_0_1_1128_wf
            Cert.KernelIdeal.Facts₀.scatter_S50000x128_S850000x1_S850000x128_1_0_0_1_wf Cert.KernelIdeal.Facts₀.bcast_S_S50000x128
            Cert.KernelIdeal.Facts₀.bcast_S850000_S850000x1_0 Cert.KernelIdeal.Facts₀.bcast_S850000x1_S850000x128_0_1
            x0 (val_main_v38 (F := Ideal) x1) (val_main_v44 (F := Ideal) x1) (val_main_v31 (F := Ideal) x1))
          x2 (shapeCast Cert.KernelIdeal.S1x256 x3 Cert.KernelIdeal.Facts₀.shapeCasts_S256_S1x256))
        x4
      = val_main_v50 (F := Ideal) x0 x1 x2 x3 x4 := by
  rw [hidden_eq x0 x1 x2 x3 hX hW hn, ref_second_product]

end Cert.Bridge

end
-- ==== Proof.LibRealSoftmax.lean ====
/-
  Real numbers inside the extended reals, for softmax-like kernels.

  * Finite sums and maxima of real numbers, computed in the extended reals, are real numbers (the maximum over a
    nonempty range, folded from `-∞`).
  * An extended real whose absolute value `max a (-a)` is below `+∞` is a real number; so is one that passes the
    entrywise test `|a| < +∞` of a finiteness precondition.
  * A softmax does not change when one number is subtracted from every logit: `exp (a - t) = exp a * exp (-t)`, and the
    common factor cancels between an entry and the total. Multiplying by the reciprocal of the total is dividing by it.
  * The single-precision words of 1, -1, 2, 64, `+∞` and `-∞`, as extended reals.
-/
import Idealize.ShloMosaic.PureOps.Ideal
import Idealize.ShloMosaic.PureOps.Ideal.Laws

noncomputable section

namespace Cert.LibRealSoftmax

open Idealize.ShloMosaic

/-! ## The constants, as real numbers -/

/-- The word `0x3F800000` is 1. -/
theorem word_one : Ideal.ofBits .f32 0x3F800000#32 = ((1 : ℝ) : EReal) := by
  simp [Ideal.ofBits, Ideal.ieee]
  norm_cast
  norm_num
/-- The word `0xBF800000` is -1. -/
theorem word_negOne : Ideal.ofBits .f32 0xBF800000#32 = ((-1 : ℝ) : EReal) := by
  simp [Ideal.ofBits, Ideal.ieee]
  norm_cast
  norm_num
/-- The word `0x40000000` is 2. -/
theorem word_two : Ideal.ofBits .f32 0x40000000#32 = ((2 : ℝ) : EReal) := by
  simp [Ideal.ofBits, Ideal.ieee]
  norm_cast
  norm_num
/-- The word `0x42800000` is 64. -/
theorem word_sixtyFour : Ideal.ofBits .f32 0x42800000#32 = ((64 : ℝ) : EReal) := by
  simp [Ideal.ofBits, Ideal.ieee]
  norm_cast
  norm_num
/-- The word `0xFF800000` is `-∞`. -/
theorem word_negInf : Ideal.ofBits .f32 0xFF800000#32 = (⊥ : EReal) := by
  simp [Ideal.ofBits, Ideal.ieee]
/-- The word `0x7F800000` is `+∞`. -/
theorem word_posInf : Ideal.ofBits .f32 0x7F800000#32 = (⊤ : EReal) := by
  simp [Ideal.ofBits, Ideal.ieee]

/-! ## Finite sums and maxima of real numbers, inside the extended reals -/

/-- A finite sum of real numbers, computed in the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, compared in the extended reals, is the real maximum. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The maximum of finitely many real numbers over a nonempty range, folded from `-∞`, is a real number. -/
theorem fold_max_real {ι : Type} (s : Finset ι) (f : ι → ℝ) (hs : s.Nonempty) :
    ∃ μ : ℝ, s.fold max (⊥ : EReal) (fun i => ((f i : ℝ) : EReal)) = (μ : EReal) := by
  classical
  have key : ∀ s : Finset ι, (s.fold max (⊥ : EReal) (fun i => ((f i : ℝ) : EReal)) = ⊥ ∧ s = ∅)
      ∨ ∃ μ : ℝ, s.fold max (⊥ : EReal) (fun i => ((f i : ℝ) : EReal)) = (μ : EReal) := by
    intro s
    induction s using Finset.induction_on with
    | empty => exact Or.inl ⟨Finset.fold_empty, rfl⟩
    | insert a s ha ih =>
      right
      rw [Finset.fold_insert ha]
      rcases ih with ⟨h, -⟩ | ⟨μ, h⟩
      · exact ⟨f a, by rw [h]; exact max_eq_left bot_le⟩
      · exact ⟨max (f a) μ, by rw [h, max_coe]⟩
  rcases key s with ⟨-, h⟩ | h
  · exact absurd h hs.ne_empty
  · exact h

/-! ## A finite entry is a real number -/

/-- An extended real with absolute value below `+∞` is a real number. -/
theorem real_of_abs_lt_top (a : EReal) (h : max a (-a) < ⊤) : ∃ r : ℝ, a = (r : EReal) := by
  by_cases ht : a = ⊤
  · subst ht; simp at h
  by_cases hb : a = ⊥
  · subst hb; simp at h
  exact ⟨a.toReal, (EReal.coe_toReal ht hb).symm⟩

/-- The entrywise test `|a| < +∞` of a finiteness precondition, passed: the entry is a real number. -/
theorem real_of_test (a : EReal)
    (h : Ideal.cmp .olt (max a (-a)) (Ideal.ofBits .f32 0x7F800000#32) = 1#1) : ∃ r : ℝ, a = (r : EReal) := by
  rw [word_posInf] at h
  refine real_of_abs_lt_top a ?_
  by_contra hn
  simp [Ideal.cmp, hn] at h

/-! ## Shift invariance of the softmax, on the reals -/

/-- Subtracting `μ` from every logit, or `δ + ν` from every logit, gives the same softmax; and multiplying by the
    reciprocal of the total is dividing by it. -/
theorem softmax_shift_real {N : ℕ} (a : Fin N → ℝ) (δ μ ν : ℝ) (j : Fin N) :
    Real.exp (a j - μ) * (1 / ∑ l, Real.exp (a l - μ)) = Real.exp (a j - δ - ν) / ∑ l, Real.exp (a l - δ - ν) := by
  have hS : 0 < ∑ l, Real.exp (a l) := Finset.sum_pos (fun l _ => Real.exp_pos _) ⟨j, Finset.mem_univ _⟩
  have h1 : ∀ t : ℝ, ∑ l, Real.exp (a l - t) = (∑ l, Real.exp (a l)) * Real.exp (-t) := by
    intro t
    rw [Finset.sum_mul]
    refine Finset.sum_congr rfl fun l _ => ?_
    rw [← Real.exp_add, sub_eq_add_neg]
  have h2 : ∀ l, a l - δ - ν = a l - (δ + ν) := fun l => by ring
  simp only [h2, h1]
  rw [sub_eq_add_neg (a j) μ, sub_eq_add_neg (a j) (δ + ν), Real.exp_add, Real.exp_add]
  have e1 : Real.exp (-μ) ≠ 0 := (Real.exp_pos _).ne'
  have e2 : Real.exp (-(δ + ν)) ≠ 0 := (Real.exp_pos _).ne'
  have e3 : (∑ l, Real.exp (a l)) ≠ 0 := hS.ne'
  field_simp

end Cert.LibRealSoftmax

end
-- ==== Proof.Reals.lean ====
/-
  Every number the two graph layers multiply and add up is a real.

  The edge weight of a graph convolution is `norm e = dinv (row e) * dinv (col e)`, where `dinv n` is `1 / √(max (deg n) ε)`
  when `deg n > 0` and `0` otherwise, `ε` a small positive constant, and `deg n` counts the edges whose column is `n`:
  zero plus a one for each of them. On the extended reals each step stays among the reals, whatever the integer edge array
  holds: a finite sum of ones is a real; the larger of a real and a positive real is a positive real; the inverse square
  root of a positive real is a real; a selection between a real and zero is a real; reading an array of reals at any
  (clamped) position gives a real; a product of two reals is a real. That is `norm_real`.

  The feature matrix and the first weight matrix are real when the precondition says so: it is the conjunction, over the
  floating-point arguments, of "every entry's absolute value is below +∞", and an extended real whose absolute value is
  below +∞ is a real. That is `arg0_real` and `arg2_real`.
-/
import proofs.«178270_j16329465660164_2_alg».proof.Defs
import proofs.«178270_j16329465660164_2_alg».proof.Proof.Gen.KernelIdeal
import proofs.«178270_j16329465660164_2_alg».proof.Proof.Gen.ReferenceIdeal
import proofs.«178270_j16329465660164_2_alg».proof.Proof.Gen.Pre_finite_inputs
import proofs.«178270_j16329465660164_2_alg».proof.Proof.RefRead
import proofs.«178270_j16329465660164_2_alg».proof.Proof.LibSegment
import proofs.«178270_j16329465660164_2_alg».proof.Proof.LibRealSoftmax
import proofs.«178270_j16329465660164_2_alg».proof.Proof.LibAggregate
import Idealize.ShloMosaic.Lib.ReduceAll
import Idealize.ShloMosaic.Lib.ValueIdx

noncomputable section

open scoped BigOperators

namespace Cert.Reals

/-! ## The edge weights -/

section Norm

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The threshold `ε`, the word `0x2B8CBCCC`, is the positive real `(2^23 + 0x0CBCCC) · 2^(87 − 127 − 23)`. -/
theorem eps_pos : ∃ e : ℝ, 0 < e ∧ Ideal.ofBits .f32 0x2B8CBCCC#32 = (e : EReal) :=
  ⟨((2 ^ 23 + 0x0CBCCC : ℕ) : ℝ) * (2 : ℝ) ^ ((87 : ℤ) - 127 - 23), by positivity,
    by simp [Ideal.ofBits, Ideal.ieee, -EReal.coe_mul]⟩

/-- The larger of a real and a positive real is a positive real. -/
theorem max_pos_real {x y : EReal} (hx : ∃ r : ℝ, x = r) (hy : ∃ r : ℝ, 0 < r ∧ y = r) :
    ∃ r : ℝ, 0 < r ∧ max x y = r := by
  obtain ⟨a, rfl⟩ := hx
  obtain ⟨b, hb, rfl⟩ := hy
  rcases le_total (a : EReal) (b : EReal) with h | h
  · exact ⟨b, hb, max_eq_right h⟩
  · exact ⟨a, lt_of_lt_of_le hb (EReal.coe_le_coe_iff.mp h), max_eq_left h⟩

/-- The degree of node `n` — zero plus a one for every edge whose column integer is `n` — is a real. -/
theorem deg_real (x1 : (⟨S2x800000, .i32⟩ : BufTy).Contents (Elt Ideal)) (n : Fin 50000) :
    ∃ d : ℝ, val_main_v10 (F := Ideal) x1 (ix1 n) = (d : EReal) := by
  have h := Cert.LibSegment.hostScatterAdd_entries_apply (N := 50000) (M := 850000) (φ := .f32)
    Facts₀.scatter_S50000_S850000x1_S850000_n_0_0_1_wf (val_main_v8 (F := Ideal)) (val_main_v9 (F := Ideal) x1)
    (val_main_v7 (F := Ideal)) n
  have h8 : val_main_v8 (F := Ideal) (ix1 n) = ((0 : ℝ) : EReal) := by
    rw [val_main_v8_apply, val_main_cst_0_apply]
    exact Ideal.ofBits_zero_f32
  have h7 : ∀ e : Fin 850000, ∃ r : ℝ, val_main_v7 (F := Ideal) (ix1 e) = (r : EReal) := fun e => by
    rw [val_main_v7_apply, val_main_cst_apply]
    exact ⟨1, Cert.LibRealSoftmax.word_one⟩
  unfold val_main_v10
  obtain ⟨r, hr⟩ := Cert.LibAggregate.add_real ⟨0, h8⟩
    (Cert.LibAggregate.sum_real (Finset.univ.filter (fun e : Fin 850000 =>
      (val_main_v9 (F := Ideal) x1 (Cert.LibSegment.colIdx e)).toInt = (n.val : Int))) (fun e => val_main_v7 (F := Ideal) (ix1 e))
      (fun e _ => h7 e))
  exact ⟨r, h.trans hr⟩

/-- `dinv n` is a real: the inverse square root of the positive real `max (deg n) ε`, or zero. -/
theorem dinv_real (x1 : (⟨S2x800000, .i32⟩ : BufTy).Contents (Elt Ideal)) (n : Fin 50000) :
    ∃ r : ℝ, val_main_v16 (F := Ideal) x1 (ix1 n) = (r : EReal) := by
  rw [val_main_v16_apply]
  by_cases hb : val_main_v12 (F := Ideal) x1 (ix1 n) = 1#1
  · rw [hb, select_one, val_main_v15_apply, Ideal.hostUnary_rsqrt_def, val_main_v14_apply, Ideal.maximumf_def]
    have heps : ∃ r : ℝ, 0 < r ∧ val_main_v13 (F := Ideal) (ix1 n) = (r : EReal) := by
      rw [val_main_v13_apply, val_main_cst_2_apply]
      exact eps_pos
    obtain ⟨p, hp, hmax⟩ := max_pos_real (deg_real x1 n) heps
    rw [hmax, Ideal.rsqrt_coe, if_neg (not_lt.mpr hp.le), if_neg hp.ne']
    exact ⟨_, rfl⟩
  · rw [eq_zero_of_ne_one hb, select_zero, val_main_call0_v1_apply, val_main_call0_v0_apply, val_main_cst_3_apply]
    exact ⟨0, Ideal.ofBits_zero_f32⟩

/-- Reading `dinv` at an array of integers gives reals: every position read, clamped into range, is an entry of `dinv`. -/
theorem gathered_real (x1 : (⟨S2x800000, .i32⟩ : BufTy).Contents (Elt Ideal))
    (idx : (⟨S850000x1, .i32⟩ : BufTy).Contents (Elt Ideal)) (i : S850000.Idx) :
    ∃ r : ℝ, Host.gather gather_S50000_S850000x1_S850000_n_0_n_n_0_1_1 (val_main_v16 (F := Ideal) x1) idx i = (r : EReal) := by
  obtain ⟨e, rfl⟩ : ∃ e : Fin 850000, i = ix1 e := ⟨i 0, eq_ix1 i⟩
  have h := Cert.LibSegment.gather_entries_apply (α := EReal) (N := 50000) (M := 850000) (by decide)
    Facts₀.gather_S50000_S850000x1_S850000_n_0_n_n_0_1_1_wf (val_main_v16 (F := Ideal) x1) idx e
  obtain ⟨r, hr⟩ := dinv_real x1 (Cert.LibSegment.clampRow 50000 (by decide) (idx (Cert.LibSegment.colIdx e)))
  exact ⟨r, h.trans hr⟩

/-- Every edge weight `dinv (row e) * dinv (col e)` is a real, for every integer edge array. -/
theorem norm_real (x1 : (⟨Cert.ReferenceIdeal.S2x800000, .i32⟩ : BufTy).Contents (Elt Ideal)) (i : Cert.ReferenceIdeal.S850000.Idx) :
    ∃ r : ℝ, Cert.ReferenceIdeal.ReadP.val_main_v31 (F := Ideal) x1 i = (r : EReal) := by
  rw [Cert.ReferenceIdeal.ReadP.val_main_v31_apply, Ideal.mulf_def]
  exact Cert.LibAggregate.mul_real (gathered_real x1 _ i) (gathered_real x1 _ i)

end Norm

/-! ## The floating-point arguments -/

section Args

open Idealize.ShloMosaic Idealize.ShloMosaic.TcCoe Idealize.SL.Sem Idealize.ShloMosaic.StableHlo Idealize.ShloMosaic.ValueIdx

/-- The index set of a scalar has one element. -/
instance : Subsingleton Cert.Pre_finite_inputs.S_.Idx := ⟨fun a b => funext fun d => d.elim0⟩

/-- If "every entry's absolute value is below +∞" holds of an array, each of its entries is a real. -/
theorem real_of_all_lt_inf {s : Shape} {axes : List (Fin s.rank)} (x : FVec Ideal s .f32)
    (bc : Cert.Pre_finite_inputs.S_.BroadcastsInDim s (![] : Fin 0 → Fin s.rank))
    (rd : s.ReducesTo axes Cert.Pre_finite_inputs.S_) (hu : 0 < Cert.Pre_finite_inputs.S_.numel)
    (e : Host.reduce IntOp.andi
        (cmpf .olt (Host.absf x) (broadcastInDim s ![] bc (constant Cert.Pre_finite_inputs.S_ .f32 0x7F800000#32)))
        (constantI Cert.Pre_finite_inputs.S_ 1 1#1) rd hu ix0 = 1#1) (i : s.Idx) :
    ∃ r : ℝ, x i = (r : EReal) :=
  Cert.LibRealSoftmax.real_of_test (x i) (Host.reduce_andi_all _ _ rd hu ix0 e i)

/-- The precondition is a conjunction of five such tests; its first two are those of the feature matrix and of the
    first weight matrix. -/
theorem pre_split (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S50000x128.Idx, ∃ r : ℝ,
        m ((c.tc : Thread Cert.KernelIdeal.nD Cert.KernelIdeal.τ).loc Cert.KernelIdeal.main_arg0) i = (r : EReal))
    ∧ (∀ i : Cert.KernelIdeal.S128x256.Idx, ∃ r : ℝ,
        m ((c.tc : Thread Cert.KernelIdeal.nD Cert.KernelIdeal.τ).loc Cert.KernelIdeal.main_arg2) i = (r : EReal)) := by
  have h0 := congrFun (h c) ix0
  dsimp only [Cert.Pre_finite_inputs.fn, Cert.Pre_finite_inputs.fn_part1, Idealize.ShloMosaic.andi] at h0
  rw [IntOp.andi_eq_one, IntOp.andi_eq_one, IntOp.andi_eq_one, IntOp.andi_eq_one] at h0
  exact ⟨fun i => real_of_all_lt_inf _ _ _ _ h0.1.1.1.1 i, fun i => real_of_all_lt_inf _ _ _ _ h0.1.1.1.2 i⟩

/-- Under the precondition every entry of the feature matrix is a real … -/
theorem arg0_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S50000x128.Idx) :
    ∃ r : ℝ, m ((c.tc : Thread Cert.KernelIdeal.nD Cert.KernelIdeal.τ).loc Cert.KernelIdeal.main_arg0) i = (r : EReal) :=
  (pre_split m h c).1 i

/-- … and so is every entry of the first weight matrix. -/
theorem arg2_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128x256.Idx) :
    ∃ r : ℝ, m ((c.tc : Thread Cert.KernelIdeal.nD Cert.KernelIdeal.τ).loc Cert.KernelIdeal.main_arg2) i = (r : EReal) :=
  (pre_split m h c).2 i

end Args

end Cert.Reals

end
-- ==== Proof.KernelValue.lean ====
/-
  The idealized kernel's result, as the reference's function of the arguments.

  Reading the fold through @main from the end: the result buffer is `tail` of what the second region left (KernelHost);
  the second region left the product of the first region's result with W₂ (OutBlocks); the first region left
  `max (A · W₁ + b₁) 0` of the arrays it found (HiddenBlocks), which were the aggregated features `agg x`, W₁ and the
  bias row (KernelHost). Under the precondition the features and W₁ are real, and the edge weights are real for every
  edge array, so the first layer is the reference's (Bridge), hence the second product is, hence the result is: the
  reference's last stage function at the kernel's own arguments.
-/
import proofs.«178270_j16329465660164_2_alg».proof.Proof.KernelHost
import proofs.«178270_j16329465660164_2_alg».proof.Proof.HiddenBlocks
import proofs.«178270_j16329465660164_2_alg».proof.Proof.OutBlocks
import proofs.«178270_j16329465660164_2_alg».proof.Proof.Bridge
import proofs.«178270_j16329465660164_2_alg».proof.Proof.Reals

noncomputable section

namespace Cert.KernelIdeal.Result

open Cert.KernelIdeal Cert.KernelIdeal.Gen Idealize.ShloMosaic Idealize.ShloMosaic.TcCoe Idealize.SL.Sem
open Cert.KernelIdeal.Host

variable (m : (ℓ : Loc nD τ sig) → Buf (Elt Ideal) ℓ) (ρ : Dev nD → PrngReg)

/-- What the second region leaves in its result array: the reference's second product, at the kernel's arguments. -/
theorem second_product (hpre : Cert.Pre_KernelIdeal m) (c : Dev nD) :
    W5 m ρ c (Proc.devRef .tc main_v47)
      = Cert.ReferenceIdeal.ReadP.val_main_v50 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  have h5 : W5 m ρ c (Proc.devRef .tc main_v47) = Cert.LibMatProd.matProd (V4 m ρ c main_v46) (V4 m ρ c main_arg4) :=
    (W5_arr m ρ c 2).trans (Cert.KernelIdeal.Out.final (V4 m ρ) c)
  have h4 : V4 m ρ c main_v46 = Cert.KernelIdeal.Hidden.hidden (V3 m ρ c main_v44) (V3 m ρ c main_arg2) (V3 m ρ c main_v45) :=
    (W4_arr m ρ c 3).trans (Cert.KernelIdeal.Hidden.final (V3 m ρ) c)
  have hw2 : V4 m ρ c main_arg4 = m ((c.tc : Thread nD τ).loc main_arg4) := W4_arg4 m ρ c
  have ha : V3 m ρ c main_v44 = _ := W3_v44 m ρ c
  have hw1 : V3 m ρ c main_arg2 = m ((c.tc : Thread nD τ).loc main_arg2) := W3_arg2 m ρ c
  have hb : V3 m ρ c main_v45 = _ := W3_v45 m ρ c
  rw [h5, h4, hw2, ha, hw1, hb]
  exact Cert.Bridge.second_eq _ _ _ _ _ (fun i => Cert.Reals.arg0_real m hpre c i) (fun i => Cert.Reals.arg2_real m hpre c i)
    (fun i => Cert.Reals.norm_real _ i)

/-- The result buffer at the end of @main is the reference's last stage function of the kernel's arguments. -/
theorem result (hpre : Cert.Pre_KernelIdeal m) (c : Dev nD) :
    W6 m ρ c (Proc.devRef .tc main_v63)
      = Cert.ReferenceIdeal.ReadP.val_main_v66 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  rw [W6_v63 m ρ c _ (second_product m ρ hpre c), Cert.Bridge.ref_tail]

end Cert.KernelIdeal.Result

end
-- ==== Proof.lean ====
/-
  A two-layer graph convolution: the kernel against its reference.

  Both programs compute, from the edge array, the edges' sources and targets (with a self loop per node) and the
  symmetric degree weights, then two rounds of "transform the node features by a weight matrix, gather along the
  edges, scale, add at the targets, add a bias", with a clamp at zero between the rounds. The kernel differs from the
  reference in ONE place: in the first round it aggregates the 128 input features before multiplying by W₁ (and does
  the product, the bias and the clamp in a tiled dense kernel), where the reference multiplies first and aggregates the
  256 products. Aggregation is a finite sum with real coefficients, so it commutes with the product by W₁ once every
  entry is a real number: the features and W₁ by the precondition, the edge weights because a degree is a finite sum
  of ones and the reciprocal square root of a positive real is real. From there on the two programs are the same text.

  The three frames: the two kernel programs' are generated whole; the reference's is its run with the result dropped.
  The idealization rewrote nothing, so `preserves` is `True`. For `algebraic` the common value of the two results is the
  reference's last stage function at the kernel's arguments (KernelValue.lean for the kernel; the reference's run for
  the reference, whose arguments agree with the kernel's).
-/
import proofs.«178270_j16329465660164_2_alg».proof.Defs
import proofs.«178270_j16329465660164_2_alg».proof.Proof.Gen.Kernel
import proofs.«178270_j16329465660164_2_alg».proof.Proof.Gen.Kernel.Skeleton
import proofs.«178270_j16329465660164_2_alg».proof.Proof.Gen.Kernel.Launch
import proofs.«178270_j16329465660164_2_alg».proof.Proof.Gen.Kernel.Points
import proofs.«178270_j16329465660164_2_alg».proof.Proof.Gen.Kernel.Frame
import proofs.«178270_j16329465660164_2_alg».proof.Proof.Gen.KernelIdeal
import proofs.«178270_j16329465660164_2_alg».proof.Proof.Gen.KernelIdeal.Skeleton
import proofs.«178270_j16329465660164_2_alg».proof.Proof.Gen.KernelIdeal.Launch
import proofs.«178270_j16329465660164_2_alg».proof.Proof.Gen.KernelIdeal.Points
import proofs.«178270_j16329465660164_2_alg».proof.Proof.Gen.KernelIdeal.Frame
import proofs.«178270_j16329465660164_2_alg».proof.Proof.Gen.ReferenceIdeal
import proofs.«178270_j16329465660164_2_alg».proof.Proof.Gen.Pre_finite_inputs
import proofs.«178270_j16329465660164_2_alg».proof.Proof.RefRead
import proofs.«178270_j16329465660164_2_alg».proof.Proof.KernelRun
import proofs.«178270_j16329465660164_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both results are the reference's last stage function of the kernel's arguments. -/
theorem algebraic : Cert.algebraic_KernelIdeal_ReferenceIdeal := by
  intro m ρ m' ρ' hpre hagree
  refine ⟨fun c => Cert.ReferenceIdeal.ReadP.val_main_v66 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result m ρ hpre c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v66_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
